-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S512x512 : Shape := ⟨2, ![512, 512]⟩
abbrev S512 : Shape := ⟨1, ![512]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S32x4096x512 .f32) (main_arg1 : FVec F S512x512 .f32) (main_arg2 : FVec F S512x512 .f32) (main_arg3 : FVec F S512x512 .f32) (main_arg4 : FVec F S512x512 .f32) (main_arg5 : FVec F S512 .f32) (main_arg6 : FVec F S512 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S32x4096x512 : Shape := ⟨3, ![32, 4096, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S32x1x512 : Shape := ⟨3, ![32, 1, 512]⟩
abbrev S1x2048x512 : Shape := ⟨3, ![1, 2048, 512]⟩
abbrev S1x1x512 : Shape := ⟨3, ![1, 1, 512]⟩
abbrev S2048x512 : Shape := ⟨2, ![2048, 512]⟩
abbrev S2048 : Shape := ⟨1, ![2048]⟩
abbrev S2048x1 : Shape := ⟨2, ![2048, 1]⟩

abbrev nBuf : Space → Nat
  | .hbm => 23
  | .vmem => 25
  | .smem => 0
  | _ => 0

abbrev bufTy : (tb : Table) → Fin (tcTables nBuf tb) → BufTy
  | .hbm, ⟨0, _⟩ => ⟨S32x4096x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x512, .bf16⟩
  | .hbm, ⟨8, _⟩ => ⟨S512x512, .bf16⟩
  | .hbm, ⟨9, _⟩ => ⟨S512x512, .bf16⟩
  | .hbm, ⟨10, _⟩ => ⟨S512x512, .bf16⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S1x512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S1x512, .f32⟩
  | .hbm, ⟨19, _⟩ => ⟨S32x4096x512, .bf16⟩
  | .hbm, ⟨20, _⟩ => ⟨S32x1x512, .f32⟩
  | .hbm, ⟨21, _⟩ => ⟨S32x1x512, .f32⟩
  | .hbm, ⟨22, _⟩ => ⟨S32x4096x512, .f32⟩
  | .local _ .vmem, ⟨0, _⟩ => ⟨S1x2048x512, .f32⟩
  | .local _ .vmem, ⟨1, _⟩ => ⟨S1x2048x512, .f32⟩
  | .local _ .vmem, ⟨2, _⟩ => ⟨S512x512, .bf16⟩
  | .local _ .vmem, ⟨3, _⟩ => ⟨S1x512, .f32⟩
  | .local _ .vmem, ⟨4, _⟩ => ⟨S1x2048x512, .bf16⟩
  | .local _ .vmem, ⟨5, _⟩ => ⟨S1x2048x512, .bf16⟩
  | .local _ .vmem, ⟨6, _⟩ => ⟨S1x1x512, .f32⟩
  | .local _ .vmem, ⟨7, _⟩ => ⟨S1x1x512, .f32⟩
  | .local _ .vmem, ⟨8, _⟩ => ⟨S1x2048x512, .bf16⟩
  | .local _ .vmem, ⟨9, _⟩ => ⟨S1x2048x512, .bf16⟩
  | .local _ .vmem, ⟨10, _⟩ => ⟨S512x512, .bf16⟩
  | .local _ .vmem, ⟨11, _⟩ => ⟨S1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x2048x512, .bf16⟩
  | .local _ .vmem, ⟨17, _⟩ => ⟨S1x2048x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S1x1x512, .f32⟩
  | .local _ .vmem, ⟨22, _⟩ => ⟨S1x1x512, .f32⟩
  | .local _ .vmem, ⟨23, _⟩ => ⟨S1x2048x512, .f32⟩
  | .local _ .vmem, ⟨24, _⟩ => ⟨S1x2048x512, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![32, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x2048x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  bitsLt_bf16_f32 : FTy.bits .bf16 < FTy.bits .f32
  bcast_S_S512 : S_.BroadcastsInDim S512 (![] : Fin 0 → Fin S512.rank)
  shapeCasts_S512_S1x512 : S512.ShapeCasts S1x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  reduces_S2048x512_S512 : S2048x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S2048x512_S1x2048x512 : S2048x512.ShapeCasts S1x2048x512
  packedbf16_S1x2048x512_S1x2048x512_0_0_0 : (Rect.unit (s := S1x2048x512) ![0, 0, 0] S1x2048x512.size inb_S1x2048x512_S1x2048x512_0_0_0).PackedRows (EltTy.packing .bf16)
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x4096x512.size a
  hwx0_0 : ∀ i : grid0.Coords, EltTy.bits .f32 = 32 ∨ (Rect.block (s := S32x4096x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S32x4096x512.size a
  hwx0_3 : ∀ i : grid0.Coords, EltTy.bits .bf16 = 32 ∨ (Rect.block (s := S32x4096x512) S1x2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S32x1x512.size a
  hwx0_4 : ∀ i : grid0.Coords, EltTy.bits .f32 = 32 ∨ (Rect.block (s := S32x1x512) S1x1x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S32x4096x512.size a
  hwx1_0 : ∀ i : grid1.Coords, EltTy.bits .bf16 = 32 ∨ (Rect.block (s := S32x4096x512) S1x2048x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S32x1x512.size a
  hwx1_3 : ∀ i : grid1.Coords, EltTy.bits .f32 = 32 ∨ (Rect.block (s := S32x1x512) S1x1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x512.size a ≤ S32x1x512.size a
  hwx1_4 : ∀ i : grid1.Coords, EltTy.bits .f32 = 32 ∨ (Rect.block (s := S32x1x512) S1x1x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x512.size a ≤ S32x4096x512.size a
  hwx2_0 : ∀ i : grid2.Coords, EltTy.bits .bf16 = 32 ∨ (Rect.block (s := S32x4096x512) S1x2048x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .bf16 = 32 ∨ (Rect.block (s := S512x512) S512x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .bf16 = 32 ∨ (Rect.block (s := S512x512) S512x512.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x512.size a ≤ S32x1x512.size a
  hwx2_4 : ∀ i : grid2.Coords, EltTy.bits .f32 = 32 ∨ (Rect.block (s := S32x1x512) S1x1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2048x512.size a ≤ S32x4096x512.size a
  hwx2_5 : ∀ i : grid2.Coords, EltTy.bits .f32 = 32 ∨ (Rect.block (s := S32x4096x512) S1x2048x512.size (cc2_transform_5 i) (hinb2_5 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10_0) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10_1) S1x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x1x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v10_0) S1x2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v12) S1x2048x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S32x4096x512 : Shape := ⟨3, ![32, 4096, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩
abbrev S32x4096 : Shape := ⟨2, ![32, 4096]⟩
abbrev S32x4096x1 : Shape := ⟨3, ![32, 4096, 1]⟩
abbrev S32x512 : Shape := ⟨2, ![32, 512]⟩
abbrev S32x1x512 : Shape := ⟨3, ![32, 1, 512]⟩

abbrev nBuf : Space → Nat
  | .hbm => 64
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S32x4096x512, .f32⟩
  | .hbm, ⟨8, _⟩ => ⟨S32x4096x512, .f32⟩
  | .hbm, ⟨9, _⟩ => ⟨S32x4096x512, .f32⟩
  | .hbm, ⟨10, _⟩ => ⟨S1x1x512, .f32⟩
  | .hbm, ⟨11, _⟩ => ⟨S32x4096x512, .f32⟩
  | .hbm, ⟨12, _⟩ => ⟨S32x4096x512, .f32⟩
  | .hbm, ⟨13, _⟩ => ⟨S_, .f32⟩
  | .hbm, ⟨14, _⟩ => ⟨S32x4096x512, .f32⟩
  | .hbm, ⟨15, _⟩ => ⟨S32x4096x512, .f32⟩
  | .hbm, ⟨16, _⟩ => ⟨S_, .f32⟩
  | .hbm, ⟨17, _⟩ => ⟨S32x4096, .f32⟩
  | .hbm, ⟨18, _⟩ => ⟨S_, .f32⟩
  | .hbm, ⟨19, _⟩ => ⟨S32x4096, .f32⟩
  | .hbm, ⟨20, _⟩ => ⟨S32x4096, .f32⟩
  | .hbm, ⟨21, _⟩ => ⟨S32x4096x1, .f32⟩
  | .hbm, ⟨22, _⟩ => ⟨S32x4096x512, .f32⟩
  | .hbm, ⟨23, _⟩ => ⟨S32x4096x512, .f32⟩
  | .hbm, ⟨24, _⟩ => ⟨S32x4096x512, .f32⟩
  | .hbm, ⟨25, _⟩ => ⟨S_, .f32⟩
  | .hbm, ⟨26, _⟩ => ⟨S32x4096, .f32⟩
  | .hbm, ⟨27, _⟩ => ⟨S32x4096x1, .f32⟩
  | .hbm, ⟨28, _⟩ => ⟨S32x4096x512, .f32⟩
  | .hbm, ⟨29, _⟩ => ⟨S32x4096x512, .f32⟩
  | .hbm, ⟨30, _⟩ => ⟨S32x4096x512, .f32⟩
  | .hbm, ⟨31, _⟩ => ⟨S_, .f32⟩
  | .hbm, ⟨32, _⟩ => ⟨S32x512, .f32⟩
  | .hbm, ⟨33, _⟩ => ⟨S32x1x512, .f32⟩
  | .hbm, ⟨34, _⟩ => ⟨S32x4096x512, .f32⟩
  | .hbm, ⟨35, _⟩ => ⟨S32x4096x512, .f32⟩
  | .hbm, ⟨36, _⟩ => ⟨S1x1x512, .f32⟩
  | .hbm, ⟨37, _⟩ => ⟨S32x4096x512, .f32⟩
  | .hbm, ⟨38, _⟩ => ⟨S32x4096x512, .f32⟩
  | .hbm, ⟨39, _⟩ => ⟨S_, .f32⟩
  | .hbm, ⟨40, _⟩ => ⟨S32x4096x512, .f32⟩
  | .hbm, ⟨41, _⟩ => ⟨S32x4096x512, .f32⟩
  | .hbm, ⟨42, _⟩ => ⟨S_, .f32⟩
  | .hbm, ⟨43, _⟩ => ⟨S32x4096, .f32⟩
  | .hbm, ⟨44, _⟩ => ⟨S_, .f32⟩
  | .hbm, ⟨45, _⟩ => ⟨S32x4096, .f32⟩
  | .hbm, ⟨46, _⟩ => ⟨S32x4096, .f32⟩
  | .hbm, ⟨47, _⟩ => ⟨S32x4096x1, .f32⟩
  | .hbm, ⟨48, _⟩ => ⟨S32x4096x512, .f32⟩
  | .hbm, ⟨49, _⟩ => ⟨S32x4096x512, .f32⟩
  | .hbm, ⟨50, _⟩ => ⟨S32x4096x512, .f32⟩
  | .hbm, ⟨51, _⟩ => ⟨S_, .f32⟩
  | .hbm, ⟨52, _⟩ => ⟨S32x4096, .f32⟩
  | .hbm, ⟨53, _⟩ => ⟨S32x4096x1, .f32⟩
  | .hbm, ⟨54, _⟩ => ⟨S32x4096x512, .f32⟩
  | .hbm, ⟨55, _⟩ => ⟨S32x4096x512, .f32⟩
  | .hbm, ⟨56, _⟩ => ⟨S32x4096x512, .f32⟩
  | .hbm, ⟨57, _⟩ => ⟨S_, .f32⟩
  | .hbm, ⟨58, _⟩ => ⟨S32x512, .f32⟩
  | .hbm, ⟨59, _⟩ => ⟨S32x1x512, .f32⟩
  | .hbm, ⟨60, _⟩ => ⟨S32x4096x512, .f32⟩
  | .hbm, ⟨61, _⟩ => ⟨S32x4096x512, .f32⟩
  | .hbm, ⟨62, _⟩ => ⟨S32x4096x512, .f32⟩
  | .hbm, ⟨63, _⟩ => ⟨S32x4096x512, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x4096x512_0_1_2 : S1x1x512.BroadcastsInDim S32x4096x512 (![0, 1, 2] : Fin 3 → Fin S32x4096x512.rank)
  bcast_S_S32x4096x512 : S_.BroadcastsInDim S32x4096x512 (![] : Fin 0 → Fin S32x4096x512.rank)
  reducesTo_S32x4096x512_S32x4096_d2 : S32x4096x512.ReducesTo [2] S32x4096
  h_S_ : 0 < S_.numel
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  bcast_S32x4096x1_S32x4096x512_0_1_2 : S32x4096x1.BroadcastsInDim S32x4096x512 (![0, 1, 2] : Fin 3 → Fin S32x4096x512.rank)
  reducesTo_S32x4096x512_S32x512_d1 : S32x4096x512.ReducesTo [1] S32x512
  bcast_S32x512_S32x1x512_0_2 : S32x512.BroadcastsInDim S32x1x512 (![0, 2] : Fin 2 → Fin S32x1x512.rank)
  bcast_S32x1x512_S32x4096x512_0_1_2 : S32x1x512.BroadcastsInDim S32x4096x512 (![0, 1, 2] : Fin 3 → Fin S32x4096x512.rank)
  dot_S32x4096x512_S512x512_S32x4096x512_2_0_01_1_n_n_wf : DotDims.WF S32x4096x512 S512x512 S32x4096x512 [2] [0] [0, 1] [1] [] []

variable [Facts₀]

def dot_S32x4096x512_S512x512_S32x4096x512_2_0_01_1_n_n : DotDims S32x4096x512 S512x512 S32x4096x512 where
  lhsContracting := [2]
  rhsContracting := [0]
  lhsNonContracting := [0, 1]
  rhsNonContracting := [1]
  lhsBatch := []
  rhsBatch := []
  wf := dot_S32x4096x512_S512x512_S32x4096x512_2_0_01_1_n_n_wf

class Facts : Prop extends Facts₀ where

variable [Facts]
-- ==== Proof.KRun.lean ====
/-
  The idealized kernel's run with its result array named. The three regions run one after the other; after the last one
  every unscoped buffer of the core holds what the fold of the regions' write-backs leaves there (`Gen.W4`), so the
  result array holds the fold's contents at its reference and every argument array is as launched.
-/
import proofs.«174871_j73358041415925_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the seven argument arrays as launched. -/
theorem run : θ_run defs (onTc (τ := τ) (main (F := F))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v12 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.KRun

end
-- ==== Proof.Pieces.lean ====
import proofs.«174871_j73358041415925_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-
  What each kernel body leaves in its output staging buffers, as the body's arithmetic (one pure term per store) of
  the blocks it loaded: the stores found by the symbolic run cover the buffer, and the whole-buffer loads read the blocks.
  In the two accumulating bodies the first grid step of a batch stores zero, reads it back and adds its contribution;
  the second adds its contribution to what the first left.
-/
namespace Cert.KernelIdeal.Pieces
open Cert.KernelIdeal Cert.KernelIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## Stage 1 -/

theorem out0_B_4_eq (c : Dev nD) (i : grid0.Coords) (a2 : Memref sig .tc .vmem S1x2048x512 .f32) (h2 : a2.IsWhole) (a3 : Memref sig .tc .vmem S512x512 .bf16) (h3 : a3.IsWhole) (a4 : Memref sig .tc .vmem S1x512 .f32) (h4 : a4.IsWhole) (a5 : Memref sig .tc .vmem S1x2048x512 .bf16) (h5 : a5.IsWhole) (a6 : Memref sig .tc .vmem S1x1x512 .f32) (h6 : a6.IsWhole) (hc : ¬cond0_0 i)
    (x0 : Vec F S1x2048x512 .f32) (x1 : Vec F S512x512 .bf16) (x2 : Vec F S1x512 .f32) (xo4 : Vec F S1x1x512 .f32) :
    out0_B_4 c i a2 h2 a3 h3 a4 h4 a5 h5 a6 h6 hc x0 x1 x2 xo4 = k0_pay3 x0 x1 x2 xo4 := by
  unfold out0_B_4
  rw [View.read_writes_eq_canon _ _ _ (cover0_B_4 c i a2 h2 a3 h3 a4 h4 a5 h5 a6 h6 hc x0 x1 x2 xo4)]
  unfold kernelRun0_B
  dsimp only
  rw [View.canon_unit_zero hz3]
  simp only [View.readAt_eq_ld, h2.read_unread, h3.read_unread, h4.read_unread, h5.read_unread, h6.read_unread,
    View.ld_unit_zero (S := S1x2048x512) hz3, View.ld_unit_zero (S := S1x1x512) hz3, View.ld_unit_zero (S := S512x512) hz2,
    View.ld_unit_zero (S := S1x512) hz2]

theorem out0_A_4_eq (c : Dev nD) (i : grid0.Coords) (a2 : Memref sig .tc .vmem S1x2048x512 .f32) (h2 : a2.IsWhole) (a3 : Memref sig .tc .vmem S512x512 .bf16) (h3 : a3.IsWhole) (a4 : Memref sig .tc .vmem S1x512 .f32) (h4 : a4.IsWhole) (a5 : Memref sig .tc .vmem S1x2048x512 .bf16) (h5 : a5.IsWhole) (a6 : Memref sig .tc .vmem S1x1x512 .f32) (h6 : a6.IsWhole) (hc : cond0_0 i)
    (x0 : Vec F S1x2048x512 .f32) (x1 : Vec F S512x512 .bf16) (x2 : Vec F S1x512 .f32) :
    out0_A_4 c i a2 h2 a3 h3 a4 h4 a5 h5 a6 h6 hc x0 x1 x2 = k0_pay3 x0 x1 x2 k0_pay2 := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x1x512) hz3, View.readCov_unit_zero (S := S1x1x512) _ hz3]
  simp only [View.readAt_eq_ld, h2.read_unread, h3.read_unread, h4.read_unread, h5.read_unread, h6.read_unread,
    View.ld_unit_zero (S := S1x2048x512) hz3, View.ld_unit_zero (S := S1x1x512) hz3, View.ld_unit_zero (S := S512x512) hz2,
    View.ld_unit_zero (S := S1x512) hz2]

theorem out0_B_3_eq (c : Dev nD) (i : grid0.Coords) (a2 : Memref sig .tc .vmem S1x2048x512 .f32) (h2 : a2.IsWhole) (a3 : Memref sig .tc .vmem S512x512 .bf16) (h3 : a3.IsWhole) (a4 : Memref sig .tc .vmem S1x512 .f32) (h4 : a4.IsWhole) (a5 : Memref sig .tc .vmem S1x2048x512 .bf16) (h5 : a5.IsWhole) (a6 : Memref sig .tc .vmem S1x1x512 .f32) (h6 : a6.IsWhole) (hc : ¬cond0_0 i)
    (x0 : Vec F S1x2048x512 .f32) (x1 : Vec F S512x512 .bf16) (x2 : Vec F S1x512 .f32) (xo4 : Vec F S1x1x512 .f32) :
    out0_B_3 c i a2 h2 a3 h3 a4 h4 a5 h5 a6 h6 hc x0 x1 x2 xo4 = k0_pay4 x0 := by
  unfold out0_B_3
  rw [View.read_writes_eq_canon _ _ _ (cover0_B_3 c i a2 h2 a3 h3 a4 h4 a5 h5 a6 h6 hc x0 x1 x2 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x2048x512) hz3, View.ld_unit_zero (S := S1x1x512) hz3, View.ld_unit_zero (S := S512x512) hz2,
    View.ld_unit_zero (S := S1x512) hz2]

theorem out0_A_3_eq (c : Dev nD) (i : grid0.Coords) (a2 : Memref sig .tc .vmem S1x2048x512 .f32) (h2 : a2.IsWhole) (a3 : Memref sig .tc .vmem S512x512 .bf16) (h3 : a3.IsWhole) (a4 : Memref sig .tc .vmem S1x512 .f32) (h4 : a4.IsWhole) (a5 : Memref sig .tc .vmem S1x2048x512 .bf16) (h5 : a5.IsWhole) (a6 : Memref sig .tc .vmem S1x1x512 .f32) (h6 : a6.IsWhole) (hc : cond0_0 i)
    (x0 : Vec F S1x2048x512 .f32) (x1 : Vec F S512x512 .bf16) (x2 : Vec F S1x512 .f32) :
    out0_A_3 c i a2 h2 a3 h3 a4 h4 a5 h5 a6 h6 hc x0 x1 x2 = k0_pay4 x0 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz3]
  simp only [View.readAt_eq_ld, h2.read_unread, h3.read_unread, h4.read_unread, h5.read_unread, h6.read_unread,
    View.ld_unit_zero (S := S1x2048x512) hz3, View.ld_unit_zero (S := S1x1x512) hz3, View.ld_unit_zero (S := S512x512) hz2,
    View.ld_unit_zero (S := S1x512) hz2]

/-! ## Stage 2 -/

theorem out1_B_4_eq (c : Dev nD) (i : grid1.Coords) (a2 : Memref sig .tc .vmem S1x2048x512 .bf16) (h2 : a2.IsWhole) (a3 : Memref sig .tc .vmem S512x512 .bf16) (h3 : a3.IsWhole) (a4 : Memref sig .tc .vmem S1x512 .f32) (h4 : a4.IsWhole) (a5 : Memref sig .tc .vmem S1x1x512 .f32) (h5 : a5.IsWhole) (a6 : Memref sig .tc .vmem S1x1x512 .f32) (h6 : a6.IsWhole) (hc : ¬cond1_0 i)
    (x0 : Vec F S1x2048x512 .bf16) (x1 : Vec F S512x512 .bf16) (x2 : Vec F S1x512 .f32) (x3 : Vec F S1x1x512 .f32) (xo4 : Vec F S1x1x512 .f32) :
    out1_B_4 c i a2 h2 a3 h3 a4 h4 a5 h5 a6 h6 hc x0 x1 x2 x3 xo4 = k1_pay2 x0 x1 x3 x2 xo4 := by
  unfold out1_B_4
  rw [View.read_writes_eq_canon _ _ _ (cover1_B_4 c i a2 h2 a3 h3 a4 h4 a5 h5 a6 h6 hc x0 x1 x2 x3 xo4)]
  unfold kernelRun1_B
  dsimp only
  rw [View.canon_unit_zero hz3]
  simp only [View.readAt_eq_ld, h2.read_unread, h3.read_unread, h4.read_unread, h5.read_unread, h6.read_unread,
    View.ld_unit_zero (S := S1x2048x512) hz3, View.ld_unit_zero (S := S1x1x512) hz3, View.ld_unit_zero (S := S512x512) hz2,
    View.ld_unit_zero (S := S1x512) hz2]

theorem out1_A_4_eq (c : Dev nD) (i : grid1.Coords) (a2 : Memref sig .tc .vmem S1x2048x512 .bf16) (h2 : a2.IsWhole) (a3 : Memref sig .tc .vmem S512x512 .bf16) (h3 : a3.IsWhole) (a4 : Memref sig .tc .vmem S1x512 .f32) (h4 : a4.IsWhole) (a5 : Memref sig .tc .vmem S1x1x512 .f32) (h5 : a5.IsWhole) (a6 : Memref sig .tc .vmem S1x1x512 .f32) (h6 : a6.IsWhole) (hc : cond1_0 i)
    (x0 : Vec F S1x2048x512 .bf16) (x1 : Vec F S512x512 .bf16) (x2 : Vec F S1x512 .f32) (x3 : Vec F S1x1x512 .f32) :
    out1_A_4 c i a2 h2 a3 h3 a4 h4 a5 h5 a6 h6 hc x0 x1 x2 x3 = k1_pay2 x0 x1 x3 x2 k1_pay1 := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x1x512) hz3, View.readCov_unit_zero (S := S1x1x512) _ hz3]
  simp only [View.readAt_eq_ld, h2.read_unread, h3.read_unread, h4.read_unread, h5.read_unread, h6.read_unread,
    View.ld_unit_zero (S := S1x2048x512) hz3, View.ld_unit_zero (S := S1x1x512) hz3, View.ld_unit_zero (S := S512x512) hz2,
    View.ld_unit_zero (S := S1x512) hz2]

/-! ## Stage 3 -/

theorem out2_5_eq (x0 : Vec F S1x2048x512 .bf16) (x1 x2 x3 : Vec F S512x512 .bf16) (x4 : Vec F S1x1x512 .f32) :
    out2_5 x0 x1 x2 x3 x4 = k2_pay1 x0 x1 x2 x3 x4 := by
  unfold out2_5
  rw [View.canon_unit_zero hz3]
  simp only [View.ld_unit_zero (S := S1x2048x512) hz3, View.ld_unit_zero (S := S1x1x512) hz3, View.ld_unit_zero (S := S512x512) hz2]

end Cert.KernelIdeal.Pieces
end
-- ==== Proof.Spec.lean ====
/-
  The mathematics both programs compute, over the extended reals, written once.

  Inputs: x[b, n, i] (32 × 4096 × 512), four 512 × 512 matrices Wq, Wk, Wv, Wr, and two vectors α, β of length 512.
  With c the common scale word (512^(-1/2) rounded to f32, read at its exact binary value):
    q[b,n,·]  = x[b,n,·] · Wq                       (a row times a matrix: `mm`)
    gq[b,d]   = Σ_n q[b,n,d] · softmax_d(q[b,n,·] ∘ (α c))        (`term`, summed over the 4096 rows)
    p[b,n,d]  = gq[b,d] · (x[b,n,·] · Wk)[d]
    gk[b,d]   = Σ_n p[b,n,d] · softmax_d(p[b,n,·] ∘ (β c))
    out[b,n,·] = (gk[b,·] ∘ (x[b,n,·] · Wv)) · Wr + q[b,n,·]
  The softmax of a row s is exp(s_d − max s) / Σ_k exp(s_k − max s), the maximum taken from −∞.
  One program sums the 4096 rows in one sum, the other as (0 + the first 2048 rows) + the last 2048 rows: `sum_halves`.
-/
import Idealize.ShloMosaic.PureOps.Ideal
import Idealize.ShloMosaic.Lib.ValueIdx

noncomputable section

open scoped BigOperators

namespace Cert.Spec

open Idealize.ShloMosaic

/-- The common scale word. -/
def scale : EReal := Ideal.ofBits .f32 0x3D3504F3#32

/-- The maximum of a row of 512 scores, taken from −∞. -/
def rowMax (s : Fin 512 → EReal) : EReal := (Finset.univ : Finset (Fin 512)).fold max ⊥ s

/-- The unnormalised softmax weight of coordinate `d`: exp(s_d − max s). -/
def rowExp (s : Fin 512 → EReal) (d : Fin 512) : EReal := Ideal.exp (s d - rowMax s)

/-- The softmax weight of coordinate `d`. -/
def soft (s : Fin 512 → EReal) (d : Fin 512) : EReal := Ideal.div (rowExp s d) (∑ k : Fin 512, rowExp s k)

/-- One row's contribution to a pooled vector: p_d · softmax_d(p ∘ a). -/
def term (p a : Fin 512 → EReal) (d : Fin 512) : EReal := p d * soft (fun k => p k * a k) d

/-- A row of length 512 times a 512 × 512 matrix, at column `d`. -/
def mm (x : Fin 512 → EReal) (W : Fin 512 → Fin 512 → EReal) (d : Fin 512) : EReal := ∑ i : Fin 512, x i * W i d

section Whole
variable (X : Fin 32 → Fin 4096 → Fin 512 → EReal) (Wq Wk Wv Wr : Fin 512 → Fin 512 → EReal) (α β : Fin 512 → EReal)

/-- The pooled query. -/
def gq (b : Fin 32) (d : Fin 512) : EReal := ∑ n : Fin 4096, term (mm (X b n) Wq) (fun k => α k * scale) d

/-- The pooled key. -/
def gk (b : Fin 32) (d : Fin 512) : EReal :=
  ∑ n : Fin 4096, term (fun k => gq X Wq α b k * mm (X b n) Wk k) (fun k => β k * scale) d

/-- The result. -/
def out (b : Fin 32) (n : Fin 4096) (e : Fin 512) : EReal :=
  mm (fun d => gk X Wq Wk α β b d * mm (X b n) Wv d) Wr e + mm (X b n) Wq e

end Whole

/-- Row `r` of half `j` (j = 0, 1) of the 4096 rows. -/
def rowOf (j : Fin 2) (r : Fin 2048) : Fin 4096 := ⟨j.val * 2048 + r.val, by have := j.isLt; have := r.isLt; omega⟩

/-- A sum over 4096 rows is (0 + the sum over the first 2048) + the sum over the last 2048. -/
theorem sum_halves (f : Fin 4096 → EReal) :
    ∑ n : Fin 4096, f n = (0 + ∑ r : Fin 2048, f (rowOf 0 r)) + ∑ r : Fin 2048, f (rowOf 1 r) := by
  rw [zero_add]
  have h := Fin.sum_univ_add (M := EReal) (a := 2048) (b := 2048) (fun n : Fin (2048 + 2048) => f n)
  rw [show (∑ n : Fin 4096, f n) = ∑ n : Fin (2048 + 2048), f n from rfl, h]
  refine congrArg₂ (· + ·) ?_ ?_
  · exact Finset.sum_congr rfl fun r _ => congrArg f (Fin.ext (by simp [rowOf]))
  · exact Finset.sum_congr rfl fun r _ => congrArg f (Fin.ext (by simp [rowOf, Nat.add_comm]))

end Cert.Spec

end
-- ==== Proof.Pool.lean ====
/-
  The pooled sum over the 4096 rows with the rows' scores and the scaling vector as parameters, so that each stage of the
  kernel is read at whatever its input arrays hold; the specification's pooled query and pooled key are instances.
-/
import proofs.«174871_j73358041415925_2_alg».proof.Proof.Spec

noncomputable section

open scoped BigOperators

namespace Cert.Spec

/-- The pooled vector: the sum over the 4096 rows `n` of row `n`'s contribution p_n[d] · softmax_d(p_n ∘ a). -/
def pool (P : Fin 4096 → Fin 512 → EReal) (a : Fin 512 → EReal) (d : Fin 512) : EReal := ∑ n : Fin 4096, term (P n) a d

/-- The pooled vector summed half by half: (0 + the first 2048 rows) + the last 2048 rows. -/
theorem pool_halves (P : Fin 4096 → Fin 512 → EReal) (a : Fin 512 → EReal) (d : Fin 512) :
    pool P a d = (0 + ∑ r : Fin 2048, term (P (rowOf 0 r)) a d) + ∑ r : Fin 2048, term (P (rowOf 1 r)) a d :=
  sum_halves fun n => term (P n) a d

theorem gq_eq_pool (X : Fin 32 → Fin 4096 → Fin 512 → EReal) (Wq : Fin 512 → Fin 512 → EReal) (α : Fin 512 → EReal)
    (b : Fin 32) (d : Fin 512) : gq X Wq α b d = pool (fun n => mm (X b n) Wq) (fun k => α k * scale) d := rfl

theorem gk_eq_pool (X : Fin 32 → Fin 4096 → Fin 512 → EReal) (Wq Wk : Fin 512 → Fin 512 → EReal) (α β : Fin 512 → EReal)
    (b : Fin 32) (d : Fin 512) :
    gk X Wq Wk α β b d = pool (fun n k => gq X Wq α b k * mm (X b n) Wk k) (fun k => β k * scale) d := rfl

end Cert.Spec

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  Each kernel body's arithmetic, read at one coordinate, in the terms of the stated mathematics.

  A block of 2048 rows x, a 512 × 512 matrix W and a vector a of length 512 give, per row r, the product row
  q_r = x_r · W; the body pools Σ_r q_r[d] · softmax_d(q_r ∘ a) onto an accumulator. The softmax is the kernel's own
  sequence: the row maximum from −∞, the exponentials of the differences, their row sum, the quotient. The second body
  pools the rows g ∘ (x_r · W) the same way, and the third computes (g ∘ (x_r · Wv)) · Wr + x_r · Wq.
  The lemmas first read each vector operation at coordinates (a product of blocks, the three reductions, the two
  column layouts), then each body.
-/
import proofs.«174871_j73358041415925_2_alg».proof.Proof.Spec
import proofs.«174871_j73358041415925_2_alg».proof.Proof.Gen.KernelIdeal.Skeleton
import proofs.«174871_j73358041415925_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay
open Idealize.ShloMosaic Idealize.ShloMosaic.ValueIdx Cert.KernelIdeal Cert.KernelIdeal.Gen

/-! ## The vector operations at coordinates -/

/-- The left operand's row coordinate is the output's row. -/
theorem lhs_row (j : S2048x512.Idx) (q : dot_S2048x512_S512x512_S2048x512_1_0_0_1_n_n.contr.Idx) : (dot_S2048x512_S512x512_S2048x512_1_0_0_1_n_n.lhsIdx j q 0).val = (j 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl

/-- The right operand's column coordinate is the output's column. -/
theorem rhs_col (j : S2048x512.Idx) (q : dot_S2048x512_S512x512_S2048x512_1_0_0_1_n_n.contr.Idx) : (dot_S2048x512_S512x512_S2048x512_1_0_0_1_n_n.rhsIdx j q 1).val = (j 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The product of a 2048 × 512 block and a 512 × 512 block into a zero accumulator, at (r, d): row r times the matrix. -/
theorem mat_apply {φ₁ φ₂ : FTy} (x : FVec Ideal S2048x512 φ₁) (w : FVec Ideal S512x512 φ₂) (r : Fin 2048) (d : Fin 512) :
    matmul dot_S2048x512_S512x512_S2048x512_1_0_0_1_n_n none x w (constant S2048x512 .f32 0x00000000#32) (ix2 r d)
      = Cert.Spec.mm (fun i => x (ix2 r i)) (fun i k => w (ix2 i k)) d := by
  simp only [matmul]
  rw [Ideal.matmul_constant_zero_apply, ← Equiv.sum_comp (contrEquiv1 dot_S2048x512_S512x512_S2048x512_1_0_0_1_n_n 512 rfl rfl).symm]
  unfold Cert.Spec.mm
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r d) ((contrEquiv1 dot_S2048x512_S512x512_S2048x512_1_0_0_1_n_n 512 rfl rfl).symm k) = ix2 r k := funext fun a => Fin.ext (by
    match a with
    | ⟨0, _⟩ => exact lhs_row _ _
    | ⟨1, _⟩ => exact (dot_S2048x512_S512x512_S2048x512_1_0_0_1_n_n.lhsIdx_val_of_single rfl _ _).trans hk)
  have er : dot_S2048x512_S512x512_S2048x512_1_0_0_1_n_n.rhsIdx (ix2 r d) ((contrEquiv1 dot_S2048x512_S512x512_S2048x512_1_0_0_1_n_n 512 rfl rfl).symm k) = ix2 k d := funext fun a => Fin.ext (by
    match a with
    | ⟨0, _⟩ => exact (dot_S2048x512_S512x512_S2048x512_1_0_0_1_n_n.rhsIdx_val_of_single rfl _ _).trans hk
    | ⟨1, _⟩ => exact rhs_col _ _)
  rw [el, er]

/-- Inserting column k into the row index r gives (r, k). -/
theorem lift_row (r : Fin 2048) (k : Fin 512) : reduces_S2048x512_S2048.lift (ix1 r) k = ix2 r k :=
  funext fun a => Fin.ext (by match a with | ⟨0, _⟩ => rfl | ⟨1, _⟩ => rfl)

/-- Inserting row r into the column index d gives (r, d). -/
theorem lift_col (d : Fin 512) (r : Fin 2048) : reduces_S2048x512_S512.lift (ix1 d) r = ix2 r d :=
  funext fun a => Fin.ext (by match a with | ⟨0, _⟩ => rfl | ⟨1, _⟩ => rfl)

/-- The word of −∞. -/
theorem ofBits_negInf : Ideal.ofBits .f32 0xFF800000#32 = (⊥ : EReal) := by
  simp [Ideal.ofBits, Ideal.ieee]

/-- The maximum of each row from −∞, at row r. -/
theorem rowmax_apply (v : FVec Ideal S2048x512 .f32) (r : Fin 2048) :
    multiReduction .maximumf [1] S2048 v 0xFF800000#32 reduces_S2048x512_S2048 (.inl rfl) rfl (ix1 r)
      = Cert.Spec.rowMax (fun k => v (ix2 r k)) := by
  refine (Ideal.multiReduction_maximumf_single v _ reduces_S2048x512_S2048 (.inl rfl) rfl (ix1 r)).trans ?_
  unfold Cert.Spec.rowMax
  show (Finset.univ : Finset (Fin 512)).fold max (Ideal.ofBits .f32 0xFF800000#32) (fun k => v (reduces_S2048x512_S2048.lift (ix1 r) k)) = _
  rw [ofBits_negInf]
  exact congrArg (fun f => (Finset.univ : Finset (Fin 512)).fold max ⊥ f) (funext fun k => congrArg v (lift_row r k))

/-- The sum of each row, at row r. -/
theorem rowsum_apply (v : FVec Ideal S2048x512 .f32) (r : Fin 2048) :
    multiReduction .add [1] S2048 v 0x00000000#32 reduces_S2048x512_S2048 (.inl rfl) rfl (ix1 r)
      = ∑ k : Fin 512, v (ix2 r k) := by
  refine (Ideal.multiReduction_add_single v _ reduces_S2048x512_S2048 (.inl rfl) rfl (ix1 r)).trans ?_
  exact Finset.sum_congr rfl fun k _ => congrArg v (lift_row r k)

/-- The sum of each column, at column d. -/
theorem colsum_apply (v : FVec Ideal S2048x512 .f32) (d : Fin 512) :
    multiReduction .add [0] S512 v 0x00000000#32 reduces_S2048x512_S512 (.inl rfl) rfl (ix1 d)
      = ∑ r : Fin 2048, v (ix2 r d) := by
  refine (Ideal.multiReduction_add_single v _ reduces_S2048x512_S512 (.inl rfl) rfl (ix1 d)).trans ?_
  exact Finset.sum_congr rfl fun r _ => congrArg v (lift_col d r)

/-- A vector of 2048 entries kept as a column and laid along 512 columns reads, at (r, k), entry r. -/
theorem keep_apply (m : FVec Ideal S2048 .f32) (r : Fin 2048) (k : Fin 512) :
    broadcastTo S2048x512 (shapeCast S2048x1 m shapeCasts_S2048_S2048x1) broadcasts_S2048x1_S2048x512 (ix2 r k) = m (ix1 r) :=
  (Cert.Keepdims.broadcastTo_a1_ab_apply _ _ r k).trans (Cert.Keepdims.shapeCast_a_a1_apply m _ r 0)

/-- One row of 512 entries laid along 2048 rows reads, at (r, k), entry (0, k). -/
theorem row_apply (a : Vec Ideal S1x512 .f32) (r : Fin 2048) (k : Fin 512) :
    broadcastTo S2048x512 (shapeCast S1x512 a shapeCasts_S1x512_S1x512) broadcasts_S1x512_S2048x512 (ix2 r k) = a (ix2 0 k) := by
  rw [shapeCast_self]
  exact broadcastTo_1b_ab_apply a _ r k

/-- A 1 × 1 × 512 block viewed as one row of 512 and laid along 2048 rows reads, at (r, k), entry (0, 0, k). -/
theorem row3_apply (g : Vec Ideal S1x1x512 .f32) (r : Fin 2048) (k : Fin 512) :
    broadcastTo S2048x512 (shapeCast S1x512 g shapeCasts_S1x1x512_S1x512) broadcasts_S1x512_S2048x512 (ix2 r k) = g (ix3 0 0 k) :=
  (broadcastTo_1b_ab_apply _ _ r k).trans (shapeCast_1ab_ab_apply g _ 0 k)

/-! ## The softmax of each row, as the bodies compute it -/

/-- The row maximum from −∞ kept as a column, the exponentials of the differences, their row sums kept as a column, the quotient. -/
def rowSoft (s : FVec Ideal S2048x512 .f32) : FVec Ideal S2048x512 .f32 :=
  divf
    (exp (subf s (broadcastTo S2048x512 (shapeCast S2048x1 (multiReduction .maximumf [1] S2048 s 0xFF800000#32 reduces_S2048x512_S2048 (.inl rfl) rfl) shapeCasts_S2048_S2048x1) broadcasts_S2048x1_S2048x512)))
    (broadcastTo S2048x512 (shapeCast S2048x1 (multiReduction .add [1] S2048
      (exp (subf s (broadcastTo S2048x512 (shapeCast S2048x1 (multiReduction .maximumf [1] S2048 s 0xFF800000#32 reduces_S2048x512_S2048 (.inl rfl) rfl) shapeCasts_S2048_S2048x1) broadcasts_S2048x1_S2048x512)))
      0x00000000#32 reduces_S2048x512_S2048 (.inl rfl) rfl) shapeCasts_S2048_S2048x1) broadcasts_S2048x1_S2048x512)

/-- The exponentials at (r, k). -/
theorem rowExp_apply (s : FVec Ideal S2048x512 .f32) (r : Fin 2048) (k : Fin 512) :
    exp (subf s (broadcastTo S2048x512 (shapeCast S2048x1 (multiReduction .maximumf [1] S2048 s 0xFF800000#32 reduces_S2048x512_S2048 (.inl rfl) rfl) shapeCasts_S2048_S2048x1) broadcasts_S2048x1_S2048x512)) (ix2 r k)
      = Cert.Spec.rowExp (fun k => s (ix2 r k)) k := by
  show Ideal.exp (s (ix2 r k) - broadcastTo S2048x512 (shapeCast S2048x1 (multiReduction .maximumf [1] S2048 s 0xFF800000#32 reduces_S2048x512_S2048 (.inl rfl) rfl) shapeCasts_S2048_S2048x1) broadcasts_S2048x1_S2048x512 (ix2 r k)) = _
  rw [keep_apply, rowmax_apply]
  rfl

/-- The body's softmax at (r, d) is the softmax of row r at d. -/
theorem rowSoft_apply (s : FVec Ideal S2048x512 .f32) (r : Fin 2048) (d : Fin 512) :
    rowSoft s (ix2 r d) = Cert.Spec.soft (fun k => s (ix2 r k)) d := by
  unfold rowSoft
  rw [divf_apply, keep_apply, rowsum_apply, rowExp_apply]
  unfold Cert.Spec.soft
  exact congrArg (Ideal.div _) (Finset.sum_congr rfl fun k _ => rowExp_apply s r k)

/-- The rows p weighted by the softmax of the rows s, summed down each column. -/
theorem pool_apply (p s : FVec Ideal S2048x512 .f32) (d : Fin 512) :
    multiReduction .add [0] S512 (mulf p (rowSoft s)) 0x00000000#32 reduces_S2048x512_S512 (.inl rfl) rfl (ix1 d)
      = ∑ r : Fin 2048, p (ix2 r d) * Cert.Spec.soft (fun k => s (ix2 r k)) d := by
  rw [colsum_apply]
  exact Finset.sum_congr rfl fun r _ => by rw [mulf_apply, rowSoft_apply]

/-- The accumulator block plus a vector of 512 entries, stored back as a 1 × 1 × 512 block. -/
theorem tail_apply (acc : Vec Ideal S1x1x512 .f32) (c : FVec Ideal S512 .f32) (d : Fin 512) :
    shapeCast S1x1x512 (addf (shapeCast S1x512 acc shapeCasts_S1x1x512_S1x512) (shapeCast S1x512 c shapeCasts_S512_S1x512)) shapeCasts_S1x512_S1x1x512 (ix3 0 0 d)
      = acc (ix3 0 0 d) + c (ix1 d) := by
  rw [shapeCast_ab_1ab_apply, addf_apply, shapeCast_1ab_ab_apply, shapeCast_a_1a_apply]

/-! ## The bodies -/

/-- Row r of a 1 × 2048 × 512 block. -/
abbrev rowB {φ : FTy} (x0 : FVec Ideal S1x2048x512 φ) (r : Fin 2048) : Fin 512 → EReal := fun i => x0 (ix3 0 r i)
/-- A 512 × 512 block as a curried matrix. -/
abbrev matB {φ : FTy} (w : FVec Ideal S512x512 φ) : Fin 512 → Fin 512 → EReal := fun i d => w (ix2 i d)

/-- The first body's narrowed block at (r, i) is the loaded block at (0, r, i): the format change is exact. -/
theorem pay0_1 (x0 : Vec Ideal S1x2048x512 .f32) (r : Fin 2048) (i : Fin 512) :
    k0_pay1 (F := Ideal) x0 (ix2 r i) = x0 (ix3 0 r i) := by
  unfold k0_pay1
  exact shapeCast_1ab_ab_apply x0 _ r i

/-- What the first body stores as the narrowed copy of its block. -/
theorem pay0_4 (x0 : Vec Ideal S1x2048x512 .f32) (r : Fin 2048) (i : Fin 512) :
    k0_pay4 (F := Ideal) x0 (ix3 0 r i) = x0 (ix3 0 r i) := by
  unfold k0_pay4
  exact (shapeCast_ab_1ab_apply _ _ 0 r i).trans (pay0_1 x0 r i)

/-- The first body's initial accumulator is zero. -/
theorem pay0_2 (d : Fin 512) : k0_pay2 (F := Ideal) (ix3 0 0 d) = 0 := by
  unfold k0_pay2
  show Ideal.ofBits .f32 0x00000000#32 = 0
  exact Ideal.ofBits_zero_f32

/-- The first body: the accumulator plus the pooled rows of x · w, weighted by the softmax of (x · w) ∘ a. -/
theorem pay0_3 (x0 : Vec Ideal S1x2048x512 .f32) (w : Vec Ideal S512x512 .bf16) (a : Vec Ideal S1x512 .f32) (acc : Vec Ideal S1x1x512 .f32) (d : Fin 512) :
    k0_pay3 (F := Ideal) x0 w a acc (ix3 0 0 d)
      = acc (ix3 0 0 d) + ∑ r : Fin 2048, Cert.Spec.term (Cert.Spec.mm (fun i => x0 (ix3 0 r i)) (fun i k => w (ix2 i k))) (fun k => a (ix2 0 k)) d := by
  show shapeCast S1x1x512 (addf (shapeCast S1x512 acc shapeCasts_S1x1x512_S1x512) (shapeCast S1x512 (multiReduction .add [0] S512 (mulf (matmul (F := Ideal) (φ₁ := .bf16) (φ₂ := .bf16) dot_S2048x512_S512x512_S2048x512_1_0_0_1_n_n none (k0_pay1 x0) (shapeCast S512x512 w shapeCasts_S512x512_S512x512) (constant S2048x512 .f32 0x00000000#32)) (rowSoft (mulf (matmul (F := Ideal) (φ₁ := .bf16) (φ₂ := .bf16) dot_S2048x512_S512x512_S2048x512_1_0_0_1_n_n none (k0_pay1 x0) (shapeCast S512x512 w shapeCasts_S512x512_S512x512) (constant S2048x512 .f32 0x00000000#32)) (broadcastTo S2048x512 (shapeCast S1x512 a shapeCasts_S1x512_S1x512) broadcasts_S1x512_S2048x512)))) 0x00000000#32 reduces_S2048x512_S512 (.inl rfl) rfl) shapeCasts_S512_S1x512)) shapeCasts_S1x512_S1x1x512 (ix3 0 0 d) = _
  rw [tail_apply, pool_apply]
  refine congrArg (acc (ix3 0 0 d) + ·) (Finset.sum_congr rfl fun r _ => ?_)
  have hq : ∀ k : Fin 512, (matmul (F := Ideal) (φ₁ := .bf16) (φ₂ := .bf16) dot_S2048x512_S512x512_S2048x512_1_0_0_1_n_n none (k0_pay1 x0) (shapeCast S512x512 w shapeCasts_S512x512_S512x512) (constant S2048x512 .f32 0x00000000#32)) (ix2 r k) = Cert.Spec.mm (fun i => x0 (ix3 0 r i)) (fun i k => w (ix2 i k)) k := fun k => by
    rw [mat_apply, shapeCast_self]
    exact congrArg (fun f => Cert.Spec.mm f _ k) (funext fun i => pay0_1 x0 r i)
  unfold Cert.Spec.term
  rw [hq d]
  refine congrArg (HMul.hMul _) (congrArg (fun s => Cert.Spec.soft s d) (funext fun k => ?_))
  rw [mulf_apply, hq k, row_apply]

/-- The second body's initial accumulator is zero. -/
theorem pay1_1 (d : Fin 512) : k1_pay1 (F := Ideal) (ix3 0 0 d) = 0 := by
  unfold k1_pay1
  show Ideal.ofBits .f32 0x00000000#32 = 0
  exact Ideal.ofBits_zero_f32

/-- The second body: the accumulator plus the pooled rows of g ∘ (x · w), weighted by the softmax of (g ∘ (x · w)) ∘ b. -/
theorem pay1_2 (x0 : Vec Ideal S1x2048x512 .bf16) (w : Vec Ideal S512x512 .bf16) (g : Vec Ideal S1x1x512 .f32) (b : Vec Ideal S1x512 .f32) (acc : Vec Ideal S1x1x512 .f32) (d : Fin 512) :
    k1_pay2 (F := Ideal) x0 w g b acc (ix3 0 0 d)
      = acc (ix3 0 0 d) + ∑ r : Fin 2048, Cert.Spec.term (fun k => g (ix3 0 0 k) * Cert.Spec.mm (fun i => x0 (ix3 0 r i)) (fun i k' => w (ix2 i k')) k) (fun k => b (ix2 0 k)) d := by
  show shapeCast S1x1x512 (addf (shapeCast S1x512 acc shapeCasts_S1x1x512_S1x512) (shapeCast S1x512 (multiReduction .add [0] S512 (mulf (mulf (broadcastTo S2048x512 (shapeCast S1x512 g shapeCasts_S1x1x512_S1x512) broadcasts_S1x512_S2048x512) (matmul (F := Ideal) (φ₁ := .bf16) (φ₂ := .bf16) dot_S2048x512_S512x512_S2048x512_1_0_0_1_n_n none (shapeCast S2048x512 x0 shapeCasts_S1x2048x512_S2048x512) (shapeCast S512x512 w shapeCasts_S512x512_S512x512) (constant S2048x512 .f32 0x00000000#32))) (rowSoft (mulf (mulf (broadcastTo S2048x512 (shapeCast S1x512 g shapeCasts_S1x1x512_S1x512) broadcasts_S1x512_S2048x512) (matmul (F := Ideal) (φ₁ := .bf16) (φ₂ := .bf16) dot_S2048x512_S512x512_S2048x512_1_0_0_1_n_n none (shapeCast S2048x512 x0 shapeCasts_S1x2048x512_S2048x512) (shapeCast S512x512 w shapeCasts_S512x512_S512x512) (constant S2048x512 .f32 0x00000000#32))) (broadcastTo S2048x512 (shapeCast S1x512 b shapeCasts_S1x512_S1x512) broadcasts_S1x512_S2048x512)))) 0x00000000#32 reduces_S2048x512_S512 (.inl rfl) rfl) shapeCasts_S512_S1x512)) shapeCasts_S1x512_S1x1x512 (ix3 0 0 d) = _
  rw [tail_apply, pool_apply]
  refine congrArg (acc (ix3 0 0 d) + ·) (Finset.sum_congr rfl fun r _ => ?_)
  have hp : ∀ k : Fin 512, (mulf (broadcastTo S2048x512 (shapeCast S1x512 g shapeCasts_S1x1x512_S1x512) broadcasts_S1x512_S2048x512) (matmul (F := Ideal) (φ₁ := .bf16) (φ₂ := .bf16) dot_S2048x512_S512x512_S2048x512_1_0_0_1_n_n none (shapeCast S2048x512 x0 shapeCasts_S1x2048x512_S2048x512) (shapeCast S512x512 w shapeCasts_S512x512_S512x512) (constant S2048x512 .f32 0x00000000#32))) (ix2 r k) = g (ix3 0 0 k) * Cert.Spec.mm (fun i => x0 (ix3 0 r i)) (fun i k' => w (ix2 i k')) k := fun k => by
    rw [mulf_apply, row3_apply, mat_apply, shapeCast_self]
    exact congrArg (fun f => g (ix3 0 0 k) * Cert.Spec.mm f _ k) (funext fun i => shapeCast_1ab_ab_apply x0 _ r i)
  unfold Cert.Spec.term
  rw [hp d]
  refine congrArg (HMul.hMul _) (congrArg (fun s => Cert.Spec.soft s d) (funext fun k => ?_))
  rw [mulf_apply, hp k, row_apply]

/-- The third body: (g ∘ (x · wv)) · wr + x · wq at (r, e). -/
theorem pay2_1 (x0 : Vec Ideal S1x2048x512 .bf16) (wq wv wr : Vec Ideal S512x512 .bf16) (g : Vec Ideal S1x1x512 .f32) (r : Fin 2048) (e : Fin 512) :
    k2_pay1 (F := Ideal) x0 wq wv wr g (ix3 0 r e)
      = Cert.Spec.mm (fun d => g (ix3 0 0 d) * Cert.Spec.mm (fun i => x0 (ix3 0 r i)) (fun i k => wv (ix2 i k)) d) (fun i k => wr (ix2 i k)) e
        + Cert.Spec.mm (fun i => x0 (ix3 0 r i)) (fun i k => wq (ix2 i k)) e := by
  have hx : ∀ (w : Vec Ideal S512x512 .bf16) (k : Fin 512), (matmul (F := Ideal) (φ₁ := .bf16) (φ₂ := .bf16) dot_S2048x512_S512x512_S2048x512_1_0_0_1_n_n none (shapeCast S2048x512 x0 shapeCasts_S1x2048x512_S2048x512) (shapeCast S512x512 w shapeCasts_S512x512_S512x512) (constant S2048x512 .f32 0x00000000#32)) (ix2 r k) = Cert.Spec.mm (fun i => x0 (ix3 0 r i)) (fun i k => w (ix2 i k)) k := fun w k => by
    rw [mat_apply, shapeCast_self]
    exact congrArg (fun f => Cert.Spec.mm f _ k) (funext fun i => shapeCast_1ab_ab_apply x0 _ r i)
  show shapeCast S1x2048x512 (addf (matmul (F := Ideal) (φ₁ := .bf16) (φ₂ := .bf16) dot_S2048x512_S512x512_S2048x512_1_0_0_1_n_n none (truncf .bf16 (mulf (broadcastTo S2048x512 (shapeCast S1x512 g shapeCasts_S1x1x512_S1x512) broadcasts_S1x512_S2048x512) (matmul (F := Ideal) (φ₁ := .bf16) (φ₂ := .bf16) dot_S2048x512_S512x512_S2048x512_1_0_0_1_n_n none (shapeCast S2048x512 x0 shapeCasts_S1x2048x512_S2048x512) (shapeCast S512x512 wv shapeCasts_S512x512_S512x512) (constant S2048x512 .f32 0x00000000#32))) bitsLt_bf16_f32) (shapeCast S512x512 wr shapeCasts_S512x512_S512x512) (constant S2048x512 .f32 0x00000000#32)) (matmul (F := Ideal) (φ₁ := .bf16) (φ₂ := .bf16) dot_S2048x512_S512x512_S2048x512_1_0_0_1_n_n none (shapeCast S2048x512 x0 shapeCasts_S1x2048x512_S2048x512) (shapeCast S512x512 wq shapeCasts_S512x512_S512x512) (constant S2048x512 .f32 0x00000000#32))) shapeCasts_S2048x512_S1x2048x512 (ix3 0 r e) = _
  rw [shapeCast_ab_1ab_apply, addf_apply, hx wq e, mat_apply, shapeCast_self wr]
  refine congrArg (fun t => t + Cert.Spec.mm (fun i => x0 (ix3 0 r i)) (fun i k => wq (ix2 i k)) e) ?_
  refine congrArg (fun f => Cert.Spec.mm f (fun i k => wr (ix2 i k)) e) (funext fun d => ?_)
  rw [truncf_apply, mulf_apply, row3_apply, hx wv d]

end Cert.KernelIdeal.Pay

end
-- ==== Proof.Region0.lean ====
import proofs.«174871_j73358041415925_2_alg».proof.Proof.Gen.KernelIdeal.Frame
import proofs.«174871_j73358041415925_2_alg».proof.Proof.Pieces
import proofs.«174871_j73358041415925_2_alg».proof.Proof.Pool
import proofs.«174871_j73358041415925_2_alg».proof.Proof.Payload
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open scoped BigOperators

/-
  Stage 1, read as values. The grid has 64 points, point t = 2·b + j working on rows j·2048 … j·2048 + 2047 of batch b.
  Its first output is the block of x it loaded (the narrowing to bf16 is the identity on extended reals), written back at
  every point, so the array ends as x. Its second output, one row of 512 per batch, is zeroed at j = 0, receives each
  point's pooled contribution, and is written back at j = 1: the array ends as the pooled sum over all 4096 rows.
-/
namespace Cert.KernelIdeal.R0
open Cert.KernelIdeal Cert.KernelIdeal.Gen Cert.KernelIdeal.Pieces Idealize.ShloMosaic.ValueIdx

/-- The printed index maps over the grid: point t is batch t / 2, half t % 2. -/
theorem idx0 : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 2 ∧ win0_3.index t (1 : Fin 3) = t.val % 2 ∧ win0_3.index t (2 : Fin 3) = 0
    ∧ win0_4.index t (0 : Fin 3) = t.val / 2 ∧ win0_4.index t (1 : Fin 3) = 0 ∧ win0_4.index t (2 : Fin 3) = 0 :=
  (by decide +kernel : ∀ t : Fin grid0.N, _)

/-- The point before `t`. -/
abbrev prev (t : Fin cfg0.N) : Fin cfg0.N := ⟨t.val - 1, Nat.lt_of_le_of_lt (Nat.sub_le _ _) t.isLt⟩

section Generic
variable {F : FTy → Type} [FloatOps F]
variable (V : (c : Dev nD) → (b : Ref sig .tc) → Buf (Elt F) ((c : Thread nD τ).loc b))

/-- After the body at any point the first output's buffer holds the body's copy of the x block. -/
theorem xb_after (c : Dev nD) (t : Fin cfg0.N) : (outsAt0 V c t.val t.isLt).1 = k0_pay4 (iblk0 V c 0 t) := by
  by_cases h0 : t.val % 2 = 0
  · rw [outsAt0_A V c t h0]
    dsimp only
    exact out0_A_3_eq (F := F) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t)
  · rw [outsAt0_B V c t h0]
    dsimp only
    exact out0_B_3_eq (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) _

/-- After the body at the second point of a batch the second output's buffer holds zero plus the two contributions. -/
theorem gq_after (c : Dev nD) (t : Fin cfg0.N) (h1 : t.val % 2 = 1) :
    (outsAt0 V c t.val t.isLt).2 = k0_pay3 (iblk0 V c 0 t) (iblk0 V c 1 t) (iblk0 V c 2 t)
      (k0_pay3 (iblk0 V c 0 (prev t)) (iblk0 V c 1 (prev t)) (iblk0 V c 2 (prev t)) k0_pay2) := by
  have hp : (prev t).val % 2 = 0 := by show (t.val - 1) % 2 = 0; omega
  have e : (outsAt0 V c (t.val - 1) (Nat.lt_of_le_of_lt (Nat.sub_le _ _) t.isLt)).2
      = k0_pay3 (iblk0 V c 0 (prev t)) (iblk0 V c 1 (prev t)) (iblk0 V c 2 (prev t)) k0_pay2 := by
    show (outsAt0 V c (prev t).val (prev t).isLt).2 = _
    rw [outsAt0_A V c (prev t) hp]
    dsimp only
    exact out0_A_4_eq (F := F) c (grid0.coords (prev t)) (ms0_0 (prev t)) (hs0_0 (prev t)) (ms0_1 (prev t)) (hs0_1 (prev t)) (ms0_2 (prev t)) (hs0_2 (prev t)) (ms0_3 (prev t)) (hs0_3 (prev t)) (ms0_4 (prev t)) (hs0_4 (prev t)) ((hcond0_0 (prev t)).mpr hp) (iblk0 V c 0 (prev t)) (iblk0 V c 1 (prev t)) (iblk0 V c 2 (prev t))
  have h0 : ¬t.val % 2 = 0 := by omega
  rw [outsAt0_B V c t h0]
  dsimp only
  rw [out0_B_4_eq (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t)
    (outsAt0 V c (t.val - 1) (Nat.lt_of_le_of_lt (Nat.sub_le _ _) t.isLt)).2]
  exact congrArg (k0_pay3 (iblk0 V c 0 t) (iblk0 V c 1 t) (iblk0 V c 2 t)) e

/-- Row r, column i of the x block at point t is x at batch b, row r of half j. -/
theorem iblk0_0 (c : Dev nD) (t : Fin cfg0.N) (b : Fin 32) (j : Fin 2) (hb : t.val / 2 = b.val) (hj : t.val % 2 = j.val)
    (r : Fin 2048) (i : Fin 512) :
    (iblk0 V c 0 t : Vec F S1x2048x512 .f32) (ix3 0 r i) = V c main_arg0 (ix3 b (Cert.Spec.rowOf j r) i) := by
  obtain ⟨e0, e1, e2, -⟩ := idx0 t
  unfold iblk0
  rw [View.read_apply]
  show V c main_arg0 _ = V c main_arg0 _
  refine congrArg (V c main_arg0) (funext fun a => Fin.ext ?_)
  match a with
  | ⟨0, _⟩ => show win0_0.index t (0 : Fin 3) * 1 + 1 * 0 = b.val; omega
  | ⟨1, _⟩ => show win0_0.index t (1 : Fin 3) * 2048 + 1 * r.val = j.val * 2048 + r.val; omega
  | ⟨2, _⟩ => show win0_0.index t (2 : Fin 3) * 512 + 1 * i.val = i.val; omega

/-- The weight block at any point is the whole weight array. -/
theorem iblk0_1 (c : Dev nD) (t : Fin cfg0.N) (i k : Fin 512) :
    (iblk0 V c 1 t : Vec F S512x512 .bf16) (ix2 i k) = V c main_v0 (ix2 i k) := by
  obtain ⟨-, -, -, e0, e1, -⟩ := idx0 t
  unfold iblk0
  rw [View.read_apply]
  show V c main_v0 _ = V c main_v0 _
  refine congrArg (V c main_v0) (funext fun a => Fin.ext ?_)
  match a with
  | ⟨0, _⟩ => show win0_1.index t (0 : Fin 2) * 512 + 1 * i.val = i.val; omega
  | ⟨1, _⟩ => show win0_1.index t (1 : Fin 2) * 512 + 1 * k.val = k.val; omega

/-- The scaling-vector block at any point is the whole 1 × 512 array. -/
theorem iblk0_2 (c : Dev nD) (t : Fin cfg0.N) (k : Fin 512) :
    (iblk0 V c 2 t : Vec F S1x512 .f32) (ix2 0 k) = V c main_v6 (ix2 0 k) := by
  obtain ⟨-, -, -, -, -, e0, e1, -⟩ := idx0 t
  unfold iblk0
  rw [View.read_apply]
  show V c main_v6 _ = V c main_v6 _
  refine congrArg (V c main_v6) (funext fun a => Fin.ext ?_)
  match a with
  | ⟨0, _⟩ => show win0_2.index t (0 : Fin 2) * 1 + 1 * 0 = 0; omega
  | ⟨1, _⟩ => show win0_2.index t (1 : Fin 2) * 512 + 1 * k.val = k.val; omega

end Generic

section AtIdeal
variable (V : (c : Dev nD) → (b : Ref sig .tc) → Buf (Elt Ideal) ((c : Thread nD τ).loc b))

/-- What the first output array ends holding: x. -/
def XB (c : Dev nD) : Buf (Elt Ideal) ((c : Thread nD τ).loc main_v10_0) := fun i => V c main_arg0 i

/-- What the second output array ends holding: at (b, 0, d) the pooled sum, over the 4096 rows of batch b, of the rows of
    x times the weight array, scored against the scaling vector the region found. -/
def GQ (c : Dev nD) : Buf (Elt Ideal) ((c : Thread nD τ).loc main_v10_1) := fun i =>
  Cert.Spec.pool (fun n => Cert.Spec.mm (fun k => V c main_arg0 (ix3 (⟨(i 0).val, (i 0).isLt⟩ : Fin 32) n k)) (fun a k => V c main_v0 (ix2 a k)))
    (fun k => V c main_v6 (ix2 0 k)) (⟨(i 2).val, (i 2).isLt⟩ : Fin 512)

/-- Two steps of the accumulating body, over any blocks: zero plus the first contribution plus the second. -/
theorem two_steps (X0 X1 : Vec Ideal S1x2048x512 .f32) (W0 W1 : Vec Ideal S512x512 .bf16) (A0 A1 : Vec Ideal S1x512 .f32) (d : Fin 512) :
    k0_pay3 (F := Ideal) X1 W1 A1 (k0_pay3 (F := Ideal) X0 W0 A0 (k0_pay2 (F := Ideal))) (ix3 0 0 d)
      = (0 + ∑ r : Fin 2048, Cert.Spec.term (Cert.Spec.mm (fun i => X0 (ix3 0 r i)) (fun i k => W0 (ix2 i k))) (fun k => A0 (ix2 0 k)) d)
        + ∑ r : Fin 2048, Cert.Spec.term (Cert.Spec.mm (fun i => X1 (ix3 0 r i)) (fun i k => W1 (ix2 i k))) (fun k => A1 (ix2 0 k)) d := by
  rw [Pay.pay0_3, Pay.pay0_3, Pay.pay0_2]

/-- An index of the second output array is in point t's block iff each coordinate is in the block's range. -/
theorem mem_blk4 (t : Fin cfg0.N) (i : S32x1x512.Idx) :
    i ∈ ((cfg0.win 4).blk t).view.set ↔ ∀ a : Fin 3, win0_4.index t a * S1x1x512.size a ≤ (i a).val ∧ (i a).val < win0_4.index t a * S1x1x512.size a + S1x1x512.size a := by
  show i ∈ ((View.whole main_v10_1).slice (win0_4.rect t)).set ↔ _
  rw [View.set_slice_whole, Rect.mem_set_unit]
  exact Iff.rfl

theorem mem_blk3 (t : Fin cfg0.N) (i : S32x4096x512.Idx) :
    i ∈ ((cfg0.win 3).blk t).view.set ↔ ∀ a : Fin 3, win0_3.index t a * S1x2048x512.size a ≤ (i a).val ∧ (i a).val < win0_3.index t a * S1x2048x512.size a + S1x2048x512.size a := by
  show i ∈ ((View.whole main_v10_0).slice (win0_3.rect t)).set ↔ _
  rw [View.set_slice_whole, Rect.mem_set_unit]
  exact Iff.rfl

/-- What point t writes back of the first output is its block of x. -/
theorem flushed3 (c : Dev nD) (t : Fin cfg0.N) :
    (dat0 V c).flushed 3 t = ((cfg0.win 3).blk t).view.read (Elt Ideal) (XB V c) := by
  obtain ⟨e0, e1, e2, -, -, -, -, f0, f1, f2, -⟩ := idx0 t
  show (cfg0.win 3).cut (grid0.coords t) ((dat0 V c).after 3 t) = _
  rw [after0_3, xb_after V c t]
  have key : ∀ j : S1x2048x512.Idx, k0_pay4 (F := Ideal) (iblk0 V c 0 t) j = XB V c (((cfg0.win 3).blk t).view.emb j) := by
    intro j
    obtain ⟨z, r, i, rfl⟩ : ∃ (z : Fin 1) (r : Fin 2048) (i : Fin 512), j = ix3 z r i := ⟨j 0, j 1, j 2, eq_ix3 j⟩
    obtain rfl : z = 0 := Subsingleton.elim _ _
    refine (Pay.pay0_4 (iblk0 V c 0 t) r i).trans ?_
    unfold iblk0 XB
    rw [View.read_apply]
    show V c main_arg0 _ = V c main_arg0 _
    refine congrArg (V c main_arg0) (funext fun a => Fin.ext ?_)
    match a with
    | ⟨0, _⟩ => show win0_0.index t (0 : Fin 3) * 1 + 1 * 0 = win0_3.index t (0 : Fin 3) * 1 + 1 * 0; omega
    | ⟨1, _⟩ => show win0_0.index t (1 : Fin 3) * 2048 + 1 * r.val = win0_3.index t (1 : Fin 3) * 2048 + 1 * r.val; omega
    | ⟨2, _⟩ => show win0_0.index t (2 : Fin 3) * 512 + 1 * i.val = win0_3.index t (2 : Fin 3) * 512 + 1 * i.val; omega
  exact funext key

/-- The first output array after the region: x. -/
theorem final3 (c : Dev nD) : (dat0 V c).arrAt 3 cfg0.N = XB V c :=
  (dat0 V c).arrAt_eq_of_cover 3 (XB V c) (fun t _ => flushed3 V c t) fun i => by
    have hN : cfg0.N = 64 := N_0
    have h0 : (i 0).val < 32 := (i 0).isLt
    have h1 : (i 1).val < 4096 := (i 1).isLt
    have h2 : (i 2).val < 512 := (i 2).isLt
    refine ⟨⟨2 * (i 0).val + (i 1).val / 2048, by omega⟩, flush0_3 _, ?_⟩
    rw [mem_blk3]
    obtain ⟨-, -, -, -, -, -, -, f0, f1, f2, -⟩ := idx0 ⟨2 * (i 0).val + (i 1).val / 2048, by omega⟩
    intro a
    match a with
    | ⟨0, _⟩ => show win0_3.index _ (0 : Fin 3) * 1 ≤ (i 0).val ∧ (i 0).val < win0_3.index _ (0 : Fin 3) * 1 + 1; rw [f0]; dsimp only; omega
    | ⟨1, _⟩ => show win0_3.index _ (1 : Fin 3) * 2048 ≤ (i 1).val ∧ (i 1).val < win0_3.index _ (1 : Fin 3) * 2048 + 2048; rw [f1]; dsimp only; omega
    | ⟨2, _⟩ => show win0_3.index _ (2 : Fin 3) * 512 ≤ (i 2).val ∧ (i 2).val < win0_3.index _ (2 : Fin 3) * 512 + 512; rw [f2]; omega

/-- What the second point of batch b writes back of the second output is its block of the pooled sum. -/
theorem flushed4 (c : Dev nD) (t : Fin cfg0.N) (hf : (cfg0.win 4).flush t = true) :
    (dat0 V c).flushed 4 t = ((cfg0.win 4).blk t).view.read (Elt Ideal) (GQ V c) := by
  have h1 : t.val % 2 = 1 := (flush0_4 t).mp hf
  have hN : cfg0.N = 64 := N_0
  have htl : t.val < 64 := lt_of_lt_of_eq t.isLt hN
  obtain ⟨-, -, -, -, -, -, -, -, -, -, g0, g1, g2⟩ := idx0 t
  show (cfg0.win 4).cut (grid0.coords t) ((dat0 V c).after 4 t) = _
  rw [after0_4, gq_after V c t h1]
  have key : ∀ j : S1x1x512.Idx,
      k0_pay3 (F := Ideal) (iblk0 V c 0 t) (iblk0 V c 1 t) (iblk0 V c 2 t)
        (k0_pay3 (F := Ideal) (iblk0 V c 0 (prev t)) (iblk0 V c 1 (prev t)) (iblk0 V c 2 (prev t)) (k0_pay2 (F := Ideal))) j
        = GQ V c (((cfg0.win 4).blk t).view.emb j) := by
    intro j
    obtain ⟨z0, z1, d, rfl⟩ : ∃ (z0 : Fin 1) (z1 : Fin 1) (d : Fin 512), j = ix3 z0 z1 d := ⟨j 0, j 1, j 2, eq_ix3 j⟩
    obtain rfl : z0 = 0 := Subsingleton.elim _ _
    obtain rfl : z1 = 0 := Subsingleton.elim _ _
    refine (two_steps (iblk0 V c 0 (prev t)) (iblk0 V c 0 t) (iblk0 V c 1 (prev t)) (iblk0 V c 1 t) (iblk0 V c 2 (prev t)) (iblk0 V c 2 t) d).trans ?_
    have hb : (⟨t.val / 2, by omega⟩ : Fin 32) = ⟨((((cfg0.win 4).blk t).view.emb (ix3 0 0 d)) 0).val, ((((cfg0.win 4).blk t).view.emb (ix3 0 0 d)) 0).isLt⟩ :=
      Fin.ext (by show t.val / 2 = win0_4.index t (0 : Fin 3) * 1 + 1 * 0; omega)
    have hd : d = ⟨((((cfg0.win 4).blk t).view.emb (ix3 0 0 d)) 2).val, ((((cfg0.win 4).blk t).view.emb (ix3 0 0 d)) 2).isLt⟩ :=
      Fin.ext (by show d.val = win0_4.index t (2 : Fin 3) * 512 + 1 * d.val; omega)
    unfold GQ
    rw [← hb, ← hd, Cert.Spec.pool_halves]
    simp only [iblk0_0 V c (prev t) ⟨t.val / 2, by omega⟩ 0 (by show (t.val - 1) / 2 = t.val / 2; omega) (by show (t.val - 1) % 2 = 0; omega),
      iblk0_0 V c t ⟨t.val / 2, by omega⟩ 1 rfl (by show t.val % 2 = 1; omega), iblk0_1 V c, iblk0_2 V c]
  exact funext key

/-- The second output array after the region: the pooled sums. -/
theorem final4 (c : Dev nD) : (dat0 V c).arrAt 4 cfg0.N = GQ V c :=
  (dat0 V c).arrAt_eq_of_cover 4 (GQ V c) (flushed4 V c) fun i => by
    have hN : cfg0.N = 64 := N_0
    have h0 : (i 0).val < 32 := (i 0).isLt
    have h1 : (i 1).val < 1 := (i 1).isLt
    have h2 : (i 2).val < 512 := (i 2).isLt
    refine ⟨⟨2 * (i 0).val + 1, by omega⟩, (flush0_4 _).mpr (by dsimp only; omega), ?_⟩
    rw [mem_blk4]
    obtain ⟨-, -, -, -, -, -, -, -, -, -, g0, g1, g2⟩ := idx0 ⟨2 * (i 0).val + 1, by omega⟩
    intro a
    match a with
    | ⟨0, _⟩ => show win0_4.index _ (0 : Fin 3) * 1 ≤ (i 0).val ∧ (i 0).val < win0_4.index _ (0 : Fin 3) * 1 + 1; rw [g0]; dsimp only; omega
    | ⟨1, _⟩ => show win0_4.index _ (1 : Fin 3) * 1 ≤ (i 1).val ∧ (i 1).val < win0_4.index _ (1 : Fin 3) * 1 + 1; rw [g1]; omega
    | ⟨2, _⟩ => show win0_4.index _ (2 : Fin 3) * 512 ≤ (i 2).val ∧ (i 2).val < win0_4.index _ (2 : Fin 3) * 512 + 512; rw [g2]; omega

end AtIdeal

end Cert.KernelIdeal.R0
end
-- ==== Proof.Region1.lean ====
import proofs.«174871_j73358041415925_2_alg».proof.Proof.Gen.KernelIdeal.Frame
import proofs.«174871_j73358041415925_2_alg».proof.Proof.Pieces
import proofs.«174871_j73358041415925_2_alg».proof.Proof.Pool
import proofs.«174871_j73358041415925_2_alg».proof.Proof.Payload
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open scoped BigOperators

/-
  Stage 2, read as values. The grid has 64 points, point t = 2·b + j working on rows j·2048 … j·2048 + 2047 of batch b.
  Its one output, a row of 512 per batch, is zeroed at j = 0, receives each point's pooled contribution of the products
  (pooled query) · (row of x times the key weights), and is written back at j = 1: the array ends as the pooled sum over all
  4096 rows of the batch.
-/
namespace Cert.KernelIdeal.R1
open Cert.KernelIdeal Cert.KernelIdeal.Gen Cert.KernelIdeal.Pieces Idealize.ShloMosaic.ValueIdx

/-- The printed index maps over the grid: point t is batch t / 2, half t % 2. -/
theorem idx1 : ∀ t : Fin cfg1.N,
    win1_0.index t (0 : Fin 3) = t.val / 2 ∧ win1_0.index t (1 : Fin 3) = t.val % 2 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 2 ∧ win1_3.index t (1 : Fin 3) = 0 ∧ win1_3.index t (2 : Fin 3) = 0
    ∧ win1_4.index t (0 : Fin 3) = t.val / 2 ∧ win1_4.index t (1 : Fin 3) = 0 ∧ win1_4.index t (2 : Fin 3) = 0 :=
  (by decide +kernel : ∀ t : Fin grid1.N, _)

/-- The point before `t`. -/
abbrev prev (t : Fin cfg1.N) : Fin cfg1.N := ⟨t.val - 1, Nat.lt_of_le_of_lt (Nat.sub_le _ _) t.isLt⟩

section Generic
variable {F : FTy → Type} [FloatOps F]
variable (V : (c : Dev nD) → (b : Ref sig .tc) → Buf (Elt F) ((c : Thread nD τ).loc b))

/-- After the body at the second point of a batch the output's buffer holds zero plus the two contributions. -/
theorem gk_after (c : Dev nD) (t : Fin cfg1.N) (h1 : t.val % 2 = 1) :
    outsAt1 V c t.val t.isLt = k1_pay2 (iblk1 V c 0 t) (iblk1 V c 1 t) (iblk1 V c 3 t) (iblk1 V c 2 t)
      (k1_pay2 (iblk1 V c 0 (prev t)) (iblk1 V c 1 (prev t)) (iblk1 V c 3 (prev t)) (iblk1 V c 2 (prev t)) k1_pay1) := by
  have hp : (prev t).val % 2 = 0 := by show (t.val - 1) % 2 = 0; omega
  have e : outsAt1 V c (t.val - 1) (Nat.lt_of_le_of_lt (Nat.sub_le _ _) t.isLt)
      = k1_pay2 (iblk1 V c 0 (prev t)) (iblk1 V c 1 (prev t)) (iblk1 V c 3 (prev t)) (iblk1 V c 2 (prev t)) k1_pay1 := by
    show outsAt1 V c (prev t).val (prev t).isLt = _
    rw [outsAt1_A V c (prev t) hp]
    exact out1_A_4_eq (F := F) c (grid1.coords (prev t)) (ms1_0 (prev t)) (hs1_0 (prev t)) (ms1_1 (prev t)) (hs1_1 (prev t)) (ms1_2 (prev t)) (hs1_2 (prev t)) (ms1_3 (prev t)) (hs1_3 (prev t)) (ms1_4 (prev t)) (hs1_4 (prev t)) ((hcond1_0 (prev t)).mpr hp) (iblk1 V c 0 (prev t)) (iblk1 V c 1 (prev t)) (iblk1 V c 2 (prev t)) (iblk1 V c 3 (prev t))
  have h0 : ¬t.val % 2 = 0 := by omega
  rw [outsAt1_B V c t h0]
  rw [out1_B_4_eq (F := F) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t)
    (outsAt1 V c (t.val - 1) (Nat.lt_of_le_of_lt (Nat.sub_le _ _) t.isLt))]
  exact congrArg (k1_pay2 (iblk1 V c 0 t) (iblk1 V c 1 t) (iblk1 V c 3 t) (iblk1 V c 2 t)) e

/-- Row r, column i of the x block at point t is x at batch b, row r of half j. -/
theorem iblk1_0 (c : Dev nD) (t : Fin cfg1.N) (b : Fin 32) (j : Fin 2) (hb : t.val / 2 = b.val) (hj : t.val % 2 = j.val)
    (r : Fin 2048) (i : Fin 512) :
    (iblk1 V c 0 t : Vec F S1x2048x512 .bf16) (ix3 0 r i) = V c main_v10_0 (ix3 b (Cert.Spec.rowOf j r) i) := by
  obtain ⟨e0, e1, e2, -⟩ := idx1 t
  unfold iblk1
  rw [View.read_apply]
  show V c main_v10_0 _ = V c main_v10_0 _
  refine congrArg (V c main_v10_0) (funext fun a => Fin.ext ?_)
  match a with
  | ⟨0, _⟩ => show win1_0.index t (0 : Fin 3) * 1 + 1 * 0 = b.val; omega
  | ⟨1, _⟩ => show win1_0.index t (1 : Fin 3) * 2048 + 1 * r.val = j.val * 2048 + r.val; omega
  | ⟨2, _⟩ => show win1_0.index t (2 : Fin 3) * 512 + 1 * i.val = i.val; omega

/-- The weight block at any point is the whole weight array. -/
theorem iblk1_1 (c : Dev nD) (t : Fin cfg1.N) (i k : Fin 512) :
    (iblk1 V c 1 t : Vec F S512x512 .bf16) (ix2 i k) = V c main_v1 (ix2 i k) := by
  obtain ⟨-, -, -, e0, e1, -⟩ := idx1 t
  unfold iblk1
  rw [View.read_apply]
  show V c main_v1 _ = V c main_v1 _
  refine congrArg (V c main_v1) (funext fun a => Fin.ext ?_)
  match a with
  | ⟨0, _⟩ => show win1_1.index t (0 : Fin 2) * 512 + 1 * i.val = i.val; omega
  | ⟨1, _⟩ => show win1_1.index t (1 : Fin 2) * 512 + 1 * k.val = k.val; omega

/-- The scaling-vector block at any point is the whole 1 × 512 array. -/
theorem iblk1_2 (c : Dev nD) (t : Fin cfg1.N) (k : Fin 512) :
    (iblk1 V c 2 t : Vec F S1x512 .f32) (ix2 0 k) = V c main_v9 (ix2 0 k) := by
  obtain ⟨-, -, -, -, -, e0, e1, -⟩ := idx1 t
  unfold iblk1
  rw [View.read_apply]
  show V c main_v9 _ = V c main_v9 _
  refine congrArg (V c main_v9) (funext fun a => Fin.ext ?_)
  match a with
  | ⟨0, _⟩ => show win1_2.index t (0 : Fin 2) * 1 + 1 * 0 = 0; omega
  | ⟨1, _⟩ => show win1_2.index t (1 : Fin 2) * 512 + 1 * k.val = k.val; omega

/-- The pooled-query block at point t is batch b's row of the pooled-query array. -/
theorem iblk1_3 (c : Dev nD) (t : Fin cfg1.N) (b : Fin 32) (hb : t.val / 2 = b.val) (k : Fin 512) :
    (iblk1 V c 3 t : Vec F S1x1x512 .f32) (ix3 0 0 k) = V c main_v10_1 (ix3 b 0 k) := by
  obtain ⟨-, -, -, -, -, -, -, e0, e1, e2, -⟩ := idx1 t
  unfold iblk1
  rw [View.read_apply]
  show V c main_v10_1 _ = V c main_v10_1 _
  refine congrArg (V c main_v10_1) (funext fun a => Fin.ext ?_)
  match a with
  | ⟨0, _⟩ => show win1_3.index t (0 : Fin 3) * 1 + 1 * 0 = b.val; omega
  | ⟨1, _⟩ => show win1_3.index t (1 : Fin 3) * 1 + 1 * 0 = 0; omega
  | ⟨2, _⟩ => show win1_3.index t (2 : Fin 3) * 512 + 1 * k.val = k.val; omega

end Generic

/-- The pooled key of one batch from the batch's pooled query g, its rows of x, the key weights and the scaling vector. -/
def gkOf (g : Fin 512 → EReal) (X : Fin 4096 → Fin 512 → EReal) (W : Fin 512 → Fin 512 → EReal) (a : Fin 512 → EReal) (d : Fin 512) : EReal :=
  Cert.Spec.pool (fun n k => g k * Cert.Spec.mm (X n) W k) a d

section AtIdeal
variable (V : (c : Dev nD) → (b : Ref sig .tc) → Buf (Elt Ideal) ((c : Thread nD τ).loc b))

/-- What the output array ends holding: at (b, 0, d) the pooled sum, over the 4096 rows of batch b, of the products of the
    pooled query with the rows of x times the key weights, scored against the scaling vector the region found. -/
def GK (c : Dev nD) : Buf (Elt Ideal) ((c : Thread nD τ).loc main_v11) := fun i =>
  gkOf (fun k => V c main_v10_1 (ix3 (⟨(i 0).val, (i 0).isLt⟩ : Fin 32) 0 k))
    (fun n i' => V c main_v10_0 (ix3 (⟨(i 0).val, (i 0).isLt⟩ : Fin 32) n i')) (fun a k' => V c main_v1 (ix2 a k'))
    (fun k => V c main_v9 (ix2 0 k)) (⟨(i 2).val, (i 2).isLt⟩ : Fin 512)

/-- Two steps of the accumulating body, over any blocks: zero plus the first contribution plus the second. -/
theorem two_steps (X0 X1 : Vec Ideal S1x2048x512 .bf16) (W0 W1 : Vec Ideal S512x512 .bf16) (G0 G1 : Vec Ideal S1x1x512 .f32)
    (B0 B1 : Vec Ideal S1x512 .f32) (d : Fin 512) :
    k1_pay2 (F := Ideal) X1 W1 G1 B1 (k1_pay2 (F := Ideal) X0 W0 G0 B0 (k1_pay1 (F := Ideal))) (ix3 0 0 d)
      = (0 + ∑ r : Fin 2048, Cert.Spec.term (fun k => G0 (ix3 0 0 k) * Cert.Spec.mm (fun i => X0 (ix3 0 r i)) (fun i k' => W0 (ix2 i k')) k) (fun k => B0 (ix2 0 k)) d)
        + ∑ r : Fin 2048, Cert.Spec.term (fun k => G1 (ix3 0 0 k) * Cert.Spec.mm (fun i => X1 (ix3 0 r i)) (fun i k' => W1 (ix2 i k')) k) (fun k => B1 (ix2 0 k)) d := by
  rw [Pay.pay1_2, Pay.pay1_2, Pay.pay1_1]

/-- An index of the output array is in point t's block iff each coordinate is in the block's range. -/
theorem mem_blk4 (t : Fin cfg1.N) (i : S32x1x512.Idx) :
    i ∈ ((cfg1.win 4).blk t).view.set ↔ ∀ a : Fin 3, win1_4.index t a * S1x1x512.size a ≤ (i a).val ∧ (i a).val < win1_4.index t a * S1x1x512.size a + S1x1x512.size a := by
  show i ∈ ((View.whole main_v11).slice (win1_4.rect t)).set ↔ _
  rw [View.set_slice_whole, Rect.mem_set_unit]
  exact Iff.rfl

/-- What the second point of batch b writes back is its block of the pooled sum. -/
theorem flushed4 (c : Dev nD) (t : Fin cfg1.N) (hf : (cfg1.win 4).flush t = true) :
    (dat1 V c).flushed 4 t = ((cfg1.win 4).blk t).view.read (Elt Ideal) (GK V c) := by
  have h1 : t.val % 2 = 1 := (flush1_4 t).mp hf
  have hN : cfg1.N = 64 := N_1
  have htl : t.val < 64 := lt_of_lt_of_eq t.isLt hN
  obtain ⟨-, -, -, -, -, -, -, -, -, -, g0, g1, g2⟩ := idx1 t
  show (cfg1.win 4).cut (grid1.coords t) ((dat1 V c).after 4 t) = _
  rw [after1_4, gk_after V c t h1]
  have key : ∀ j : S1x1x512.Idx,
      k1_pay2 (F := Ideal) (iblk1 V c 0 t) (iblk1 V c 1 t) (iblk1 V c 3 t) (iblk1 V c 2 t)
        (k1_pay2 (F := Ideal) (iblk1 V c 0 (prev t)) (iblk1 V c 1 (prev t)) (iblk1 V c 3 (prev t)) (iblk1 V c 2 (prev t)) (k1_pay1 (F := Ideal))) j
        = GK V c (((cfg1.win 4).blk t).view.emb j) := by
    intro j
    obtain ⟨z0, z1, d, rfl⟩ : ∃ (z0 : Fin 1) (z1 : Fin 1) (d : Fin 512), j = ix3 z0 z1 d := ⟨j 0, j 1, j 2, eq_ix3 j⟩
    obtain rfl : z0 = 0 := Subsingleton.elim _ _
    obtain rfl : z1 = 0 := Subsingleton.elim _ _
    refine (two_steps (iblk1 V c 0 (prev t)) (iblk1 V c 0 t) (iblk1 V c 1 (prev t)) (iblk1 V c 1 t) (iblk1 V c 3 (prev t)) (iblk1 V c 3 t)
      (iblk1 V c 2 (prev t)) (iblk1 V c 2 t) d).trans ?_
    have hb : (⟨t.val / 2, by omega⟩ : Fin 32) = ⟨((((cfg1.win 4).blk t).view.emb (ix3 0 0 d)) 0).val, ((((cfg1.win 4).blk t).view.emb (ix3 0 0 d)) 0).isLt⟩ :=
      Fin.ext (by show t.val / 2 = win1_4.index t (0 : Fin 3) * 1 + 1 * 0; omega)
    have hd : d = ⟨((((cfg1.win 4).blk t).view.emb (ix3 0 0 d)) 2).val, ((((cfg1.win 4).blk t).view.emb (ix3 0 0 d)) 2).isLt⟩ :=
      Fin.ext (by show d.val = win1_4.index t (2 : Fin 3) * 512 + 1 * d.val; omega)
    unfold GK gkOf
    rw [← hb, ← hd, Cert.Spec.pool_halves]
    simp only [iblk1_0 V c (prev t) ⟨t.val / 2, by omega⟩ 0 (by show (t.val - 1) / 2 = t.val / 2; omega) (by show (t.val - 1) % 2 = 0; omega),
      iblk1_0 V c t ⟨t.val / 2, by omega⟩ 1 rfl (by show t.val % 2 = 1; omega), iblk1_1 V c, iblk1_2 V c,
      iblk1_3 V c (prev t) ⟨t.val / 2, by omega⟩ (by show (t.val - 1) / 2 = t.val / 2; omega), iblk1_3 V c t ⟨t.val / 2, by omega⟩ rfl]
  exact funext key

/-- The output array after the region: the pooled sums. -/
theorem final4 (c : Dev nD) : (dat1 V c).arrAt 4 cfg1.N = GK V c :=
  (dat1 V c).arrAt_eq_of_cover 4 (GK V c) (flushed4 V c) fun i => by
    have hN : cfg1.N = 64 := N_1
    have h0 : (i 0).val < 32 := (i 0).isLt
    have h1 : (i 1).val < 1 := (i 1).isLt
    have h2 : (i 2).val < 512 := (i 2).isLt
    refine ⟨⟨2 * (i 0).val + 1, by omega⟩, (flush1_4 _).mpr (by dsimp only; omega), ?_⟩
    rw [mem_blk4]
    obtain ⟨-, -, -, -, -, -, -, -, -, -, g0, g1, g2⟩ := idx1 ⟨2 * (i 0).val + 1, by omega⟩
    intro a
    match a with
    | ⟨0, _⟩ => show win1_4.index _ (0 : Fin 3) * 1 ≤ (i 0).val ∧ (i 0).val < win1_4.index _ (0 : Fin 3) * 1 + 1; rw [g0]; dsimp only; omega
    | ⟨1, _⟩ => show win1_4.index _ (1 : Fin 3) * 1 ≤ (i 1).val ∧ (i 1).val < win1_4.index _ (1 : Fin 3) * 1 + 1; rw [g1]; omega
    | ⟨2, _⟩ => show win1_4.index _ (2 : Fin 3) * 512 ≤ (i 2).val ∧ (i 2).val < win1_4.index _ (2 : Fin 3) * 512 + 512; rw [g2]; omega

end AtIdeal

end Cert.KernelIdeal.R1
end
-- ==== Proof.Region2.lean ====
import proofs.«174871_j73358041415925_2_alg».proof.Proof.Gen.KernelIdeal.Frame
import proofs.«174871_j73358041415925_2_alg».proof.Proof.Pieces
import proofs.«174871_j73358041415925_2_alg».proof.Proof.Pool
import proofs.«174871_j73358041415925_2_alg».proof.Proof.Payload
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open scoped BigOperators

/-
  Stage 3, read as values. The grid has 64 points, point t = 2·b + j working on rows j·2048 … j·2048 + 2047 of batch b.
  Each point loads its block of x, the three whole weight arrays and batch b's pooled key g, and writes back the block
  (g ∘ (x · Wv)) · Wr + x · Wq of the output. The blocks tile the output array, every point writes its own back, so the
  array ends holding that expression at every (b, n, e).
-/
namespace Cert.KernelIdeal.R2
open Cert.KernelIdeal Cert.KernelIdeal.Gen Cert.KernelIdeal.Pieces Idealize.ShloMosaic.ValueIdx

/-- The printed index maps over the grid: point t is batch t / 2, half t % 2. -/
theorem idx2 : ∀ t : Fin cfg2.N,
    win2_0.index t (0 : Fin 3) = t.val / 2 ∧ win2_0.index t (1 : Fin 3) = t.val % 2 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val / 2 ∧ win2_4.index t (1 : Fin 3) = 0 ∧ win2_4.index t (2 : Fin 3) = 0
    ∧ win2_5.index t (0 : Fin 3) = t.val / 2 ∧ win2_5.index t (1 : Fin 3) = t.val % 2 ∧ win2_5.index t (2 : Fin 3) = 0 :=
  (by decide +kernel : ∀ t : Fin grid2.N, _)

section Generic
variable {F : FTy → Type} [FloatOps F]
variable (V : (c : Dev nD) → (b : Ref sig .tc) → Buf (Elt F) ((c : Thread nD τ).loc b))

/-- Row r, column i of the x block at point t is x at batch b, row n = (t % 2) · 2048 + r. -/
theorem iblk2_0 (c : Dev nD) (t : Fin cfg2.N) (b : Fin 32) (n : Fin 4096) (r : Fin 2048) (hb : t.val / 2 = b.val)
    (hn : t.val % 2 * 2048 + r.val = n.val) (i : Fin 512) :
    (iblk2 V c 0 t : Vec F S1x2048x512 .bf16) (ix3 0 r i) = V c main_v10_0 (ix3 b n i) := by
  obtain ⟨e0, e1, e2, -⟩ := idx2 t
  unfold iblk2
  rw [View.read_apply]
  show V c main_v10_0 _ = V c main_v10_0 _
  refine congrArg (V c main_v10_0) (funext fun a => Fin.ext ?_)
  match a with
  | ⟨0, _⟩ => show win2_0.index t (0 : Fin 3) * 1 + 1 * 0 = b.val; omega
  | ⟨1, _⟩ => show win2_0.index t (1 : Fin 3) * 2048 + 1 * r.val = n.val; omega
  | ⟨2, _⟩ => show win2_0.index t (2 : Fin 3) * 512 + 1 * i.val = i.val; omega

/-- The first weight block at any point is the whole array. -/
theorem iblk2_1 (c : Dev nD) (t : Fin cfg2.N) (i k : Fin 512) :
    (iblk2 V c 1 t : Vec F S512x512 .bf16) (ix2 i k) = V c main_v0 (ix2 i k) := by
  obtain ⟨-, -, -, e0, e1, -⟩ := idx2 t
  unfold iblk2
  rw [View.read_apply]
  show V c main_v0 _ = V c main_v0 _
  refine congrArg (V c main_v0) (funext fun a => Fin.ext ?_)
  match a with
  | ⟨0, _⟩ => show win2_1.index t (0 : Fin 2) * 512 + 1 * i.val = i.val; omega
  | ⟨1, _⟩ => show win2_1.index t (1 : Fin 2) * 512 + 1 * k.val = k.val; omega

/-- The second weight block at any point is the whole array. -/
theorem iblk2_2 (c : Dev nD) (t : Fin cfg2.N) (i k : Fin 512) :
    (iblk2 V c 2 t : Vec F S512x512 .bf16) (ix2 i k) = V c main_v2 (ix2 i k) := by
  obtain ⟨-, -, -, -, -, e0, e1, -⟩ := idx2 t
  unfold iblk2
  rw [View.read_apply]
  show V c main_v2 _ = V c main_v2 _
  refine congrArg (V c main_v2) (funext fun a => Fin.ext ?_)
  match a with
  | ⟨0, _⟩ => show win2_2.index t (0 : Fin 2) * 512 + 1 * i.val = i.val; omega
  | ⟨1, _⟩ => show win2_2.index t (1 : Fin 2) * 512 + 1 * k.val = k.val; omega

/-- The third weight block at any point is the whole array. -/
theorem iblk2_3 (c : Dev nD) (t : Fin cfg2.N) (i k : Fin 512) :
    (iblk2 V c 3 t : Vec F S512x512 .bf16) (ix2 i k) = V c main_v3 (ix2 i k) := by
  obtain ⟨-, -, -, -, -, -, -, e0, e1, -⟩ := idx2 t
  unfold iblk2
  rw [View.read_apply]
  show V c main_v3 _ = V c main_v3 _
  refine congrArg (V c main_v3) (funext fun a => Fin.ext ?_)
  match a with
  | ⟨0, _⟩ => show win2_3.index t (0 : Fin 2) * 512 + 1 * i.val = i.val; omega
  | ⟨1, _⟩ => show win2_3.index t (1 : Fin 2) * 512 + 1 * k.val = k.val; omega

/-- The pooled-key block at point t is batch b's row of the pooled-key array. -/
theorem iblk2_4 (c : Dev nD) (t : Fin cfg2.N) (b : Fin 32) (hb : t.val / 2 = b.val) (d : Fin 512) :
    (iblk2 V c 4 t : Vec F S1x1x512 .f32) (ix3 0 0 d) = V c main_v11 (ix3 b 0 d) := by
  obtain ⟨-, -, -, -, -, -, -, -, -, g0, g1, g2, -⟩ := idx2 t
  unfold iblk2
  rw [View.read_apply]
  show V c main_v11 _ = V c main_v11 _
  refine congrArg (V c main_v11) (funext fun a => Fin.ext ?_)
  match a with
  | ⟨0, _⟩ => show win2_4.index t (0 : Fin 3) * 1 + 1 * 0 = b.val; omega
  | ⟨1, _⟩ => show win2_4.index t (1 : Fin 3) * 1 + 1 * 0 = 0; omega
  | ⟨2, _⟩ => show win2_4.index t (2 : Fin 3) * 512 + 1 * d.val = d.val; omega

end Generic

section AtIdeal
variable (V : (c : Dev nD) → (b : Ref sig .tc) → Buf (Elt Ideal) ((c : Thread nD τ).loc b))

/-- Over plain rows and matrices: (g ∘ (x · Wv)) · Wr + x · Wq at column e. -/
def outOf (g x : Fin 512 → EReal) (Wq Wv Wr : Fin 512 → Fin 512 → EReal) (e : Fin 512) : EReal :=
  Cert.Spec.mm (fun d => g d * Cert.Spec.mm x Wv d) Wr e + Cert.Spec.mm x Wq e

/-- What the output array ends holding: at (b, n, e), row n of batch b of x times the second weight array, scaled
    coordinatewise by batch b's pooled key, times the third weight array, plus the row times the first weight array. -/
def OUT (c : Dev nD) : Buf (Elt Ideal) ((c : Thread nD τ).loc main_v12) := fun i =>
  outOf (fun d => V c main_v11 (ix3 (⟨(i 0).val, (i 0).isLt⟩ : Fin 32) 0 d)) (fun k => V c main_v10_0 (ix3 (⟨(i 0).val, (i 0).isLt⟩ : Fin 32) (⟨(i 1).val, (i 1).isLt⟩ : Fin 4096) k)) (fun a k => V c main_v0 (ix2 a k)) (fun a k => V c main_v2 (ix2 a k)) (fun a k => V c main_v3 (ix2 a k)) (⟨(i 2).val, (i 2).isLt⟩ : Fin 512)

/-- An index of the output array is in point t's block iff each coordinate is in the block's range. -/
theorem mem_blk5 (t : Fin cfg2.N) (i : S32x4096x512.Idx) :
    i ∈ ((cfg2.win 5).blk t).view.set ↔ ∀ a : Fin 3, win2_5.index t a * S1x2048x512.size a ≤ (i a).val ∧ (i a).val < win2_5.index t a * S1x2048x512.size a + S1x2048x512.size a := by
  show i ∈ ((View.whole main_v12).slice (win2_5.rect t)).set ↔ _
  rw [View.set_slice_whole, Rect.mem_set_unit]
  exact Iff.rfl

/-- What point t writes back of the output is its block of the stated expression. -/
theorem flushed5 (c : Dev nD) (t : Fin cfg2.N) :
    (dat2 V c).flushed 5 t = ((cfg2.win 5).blk t).view.read (Elt Ideal) (OUT V c) := by
  have hN : cfg2.N = 64 := N_2
  have htl : t.val < 64 := lt_of_lt_of_eq t.isLt hN
  obtain ⟨-, -, -, -, -, -, -, -, -, -, -, -, o0, o1, o2⟩ := idx2 t
  show (cfg2.win 5).cut (grid2.coords t) ((dat2 V c).after 5 t) = _
  rw [after2_5, out2_5_eq (F := Ideal) (iblk2 V c 0 t) (iblk2 V c 1 t) (iblk2 V c 2 t) (iblk2 V c 3 t) (iblk2 V c 4 t)]
  have key : ∀ j : S1x2048x512.Idx,
      k2_pay1 (F := Ideal) (iblk2 V c 0 t) (iblk2 V c 1 t) (iblk2 V c 2 t) (iblk2 V c 3 t) (iblk2 V c 4 t) j
        = OUT V c (((cfg2.win 5).blk t).view.emb j) := by
    intro j
    obtain ⟨z, r, e, rfl⟩ : ∃ (z : Fin 1) (r : Fin 2048) (e : Fin 512), j = ix3 z r e := ⟨j 0, j 1, j 2, eq_ix3 j⟩
    obtain rfl : z = 0 := Subsingleton.elim _ _
    refine (Pay.pay2_1 (iblk2 V c 0 t) (iblk2 V c 1 t) (iblk2 V c 2 t) (iblk2 V c 3 t) (iblk2 V c 4 t) r e).trans ?_
    have hb : (⟨t.val / 2, by omega⟩ : Fin 32) = ⟨((((cfg2.win 5).blk t).view.emb (ix3 0 r e)) 0).val, ((((cfg2.win 5).blk t).view.emb (ix3 0 r e)) 0).isLt⟩ :=
      Fin.ext (by show t.val / 2 = win2_5.index t (0 : Fin 3) * 1 + 1 * 0; omega)
    have hn : (⟨t.val % 2 * 2048 + r.val, by omega⟩ : Fin 4096) = ⟨((((cfg2.win 5).blk t).view.emb (ix3 0 r e)) 1).val, ((((cfg2.win 5).blk t).view.emb (ix3 0 r e)) 1).isLt⟩ :=
      Fin.ext (by show t.val % 2 * 2048 + r.val = win2_5.index t (1 : Fin 3) * 2048 + 1 * r.val; omega)
    have he : e = ⟨((((cfg2.win 5).blk t).view.emb (ix3 0 r e)) 2).val, ((((cfg2.win 5).blk t).view.emb (ix3 0 r e)) 2).isLt⟩ :=
      Fin.ext (by show e.val = win2_5.index t (2 : Fin 3) * 512 + 1 * e.val; omega)
    unfold OUT outOf
    rw [← hb, ← hn, ← he]
    simp only [iblk2_0 V c t ⟨t.val / 2, by omega⟩ ⟨t.val % 2 * 2048 + r.val, by omega⟩ r rfl rfl, iblk2_1 V c, iblk2_2 V c, iblk2_3 V c,
      iblk2_4 V c t ⟨t.val / 2, by omega⟩ rfl]
  exact funext key

/-- The output array after the region: the stated expression everywhere. -/
theorem final5 (c : Dev nD) : (dat2 V c).arrAt 5 cfg2.N = OUT V c :=
  (dat2 V c).arrAt_eq_of_cover 5 (OUT V c) (fun t _ => flushed5 V c t) fun i => by
    have hN : cfg2.N = 64 := N_2
    have h0 : (i 0).val < 32 := (i 0).isLt
    have h1 : (i 1).val < 4096 := (i 1).isLt
    have h2 : (i 2).val < 512 := (i 2).isLt
    refine ⟨⟨2 * (i 0).val + (i 1).val / 2048, by omega⟩, flush2_5 _, ?_⟩
    rw [mem_blk5]
    obtain ⟨-, -, -, -, -, -, -, -, -, -, -, -, o0, o1, o2⟩ := idx2 ⟨2 * (i 0).val + (i 1).val / 2048, by omega⟩
    intro a
    match a with
    | ⟨0, _⟩ => show win2_5.index _ (0 : Fin 3) * 1 ≤ (i 0).val ∧ (i 0).val < win2_5.index _ (0 : Fin 3) * 1 + 1; rw [o0]; dsimp only; omega
    | ⟨1, _⟩ => show win2_5.index _ (1 : Fin 3) * 2048 ≤ (i 1).val ∧ (i 1).val < win2_5.index _ (1 : Fin 3) * 2048 + 2048; rw [o1]; dsimp only; omega
    | ⟨2, _⟩ => show win2_5.index _ (2 : Fin 3) * 512 ≤ (i 2).val ∧ (i 2).val < win2_5.index _ (2 : Fin 3) * 512 + 512; rw [o2]; omega

end AtIdeal

end Cert.KernelIdeal.R2
end
-- ==== Proof.Walk.lean ====
/-
  What each buffer of the kernel program holds where a region reads it: the four matrices unchanged (a narrowing of
  the format is the identity on extended reals), the two vectors α and β each multiplied by the scale word and laid
  out as one row, the input as launched, and each region's results as the region left them.
-/
import proofs.«174871_j73358041415925_2_alg».proof.Proof.Spec
import proofs.«174871_j73358041415925_2_alg».proof.Proof.Gen.KernelIdeal.Frame
import Idealize.ShloMosaic.Lib.ValueIdx
import Idealize.ShloMosaic.Lib.Pipeline.Value
import Idealize.ShloMosaic.Lib.StableHlo.Run
import Idealize.ShloMosaic.Lib.ValueLayout

noncomputable section

open scoped BigOperators

namespace Cert.KernelIdeal.Walk

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-- No host operation writes the input. -/
theorem V1_arg0 (c : Dev nD) : V1 m ρ c main_arg0 = m ((c : Thread nD τ).loc main_arg0) :=
  calc V1 m ρ c main_arg0
    _ = W0 m ρ c (Proc.devRef .tc main_arg0) := StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg0) := rfl

/-- Wq narrowed: the same extended reals. -/
theorem V1_v0 (c : Dev nD) (i k : Fin 512) : V1 m ρ c main_v0 (ix2 i k) = m ((c : Thread nD τ).loc main_arg1) (ix2 i k) := by
  show StableHlo.after hostOps0 (W0 m ρ c) (Proc.devRef .tc main_v0) (ix2 i k) = _
  after_results
  rfl

/-- α times the scale word, as one row. -/
theorem V1_v6 (c : Dev nD) (k : Fin 512) :
    (V1 m ρ c main_v6 (ix2 0 k) : EReal)
      = @HMul.hMul EReal EReal EReal instHMul (m ((c : Thread nD τ).loc main_arg5) (ix1 k)) Cert.Spec.scale := by
  show StableHlo.after hostOps0 (W0 m ρ c) (Proc.devRef .tc main_v6) (ix2 0 k) = _
  after_results
  show shapeCast ⟨2, ![1, 512]⟩ (mulf (W0 m ρ c (Proc.devRef .tc main_arg5))
      (broadcastInDim S512 ![] bcast_S_S512 (constant (F := Ideal) S_ .f32 0x3D3504F3#32))) shapeCasts_S512_S1x512 (ix2 0 k) = _
  rw [shapeCast_a_1a_apply]
  rfl

/-- Wk narrowed, at region 0's entry. -/
theorem V1_v1 (c : Dev nD) (i k : Fin 512) : V1 m ρ c main_v1 (ix2 i k) = m ((c : Thread nD τ).loc main_arg2) (ix2 i k) := by
  show StableHlo.after hostOps0 (W0 m ρ c) (Proc.devRef .tc main_v1) (ix2 i k) = _
  after_results
  rfl

/-- Wv narrowed, at region 0's entry. -/
theorem V1_v2 (c : Dev nD) (i k : Fin 512) : V1 m ρ c main_v2 (ix2 i k) = m ((c : Thread nD τ).loc main_arg3) (ix2 i k) := by
  show StableHlo.after hostOps0 (W0 m ρ c) (Proc.devRef .tc main_v2) (ix2 i k) = _
  after_results
  rfl

/-- Wr narrowed, at region 0's entry. -/
theorem V1_v3 (c : Dev nD) (i k : Fin 512) : V1 m ρ c main_v3 (ix2 i k) = m ((c : Thread nD τ).loc main_arg4) (ix2 i k) := by
  show StableHlo.after hostOps0 (W0 m ρ c) (Proc.devRef .tc main_v3) (ix2 i k) = _
  after_results
  rfl

/-- β times the scale word, as one row, at region 0's entry. -/
theorem V1_v9 (c : Dev nD) (k : Fin 512) :
    (V1 m ρ c main_v9 (ix2 0 k) : EReal)
      = @HMul.hMul EReal EReal EReal instHMul (m ((c : Thread nD τ).loc main_arg6) (ix1 k)) Cert.Spec.scale := by
  show StableHlo.after hostOps0 (W0 m ρ c) (Proc.devRef .tc main_v9) (ix2 0 k) = _
  after_results
  show shapeCast ⟨2, ![1, 512]⟩ (mulf (W0 m ρ c (Proc.devRef .tc main_arg6))
      (broadcastInDim S512 ![] bcast_S_S512 (constant (F := Ideal) S_ .f32 0x3D3504F3#32))) shapeCasts_S512_S1x512 (ix2 0 k) = _
  rw [shapeCast_a_1a_apply]
  rfl

/-- Region 0 does not touch Wk. -/
theorem V2_v1 (c : Dev nD) (i k : Fin 512) : V2 m ρ c main_v1 (ix2 i k) = m ((c : Thread nD τ).loc main_arg2) (ix2 i k) :=
  (congrFun (W2_of_ne m ρ c main_v1 (by decide)) (ix2 i k)).trans (V1_v1 m ρ c i k)

/-- Region 0 does not touch β's row. -/
theorem V2_v9 (c : Dev nD) (k : Fin 512) :
    (V2 m ρ c main_v9 (ix2 0 k) : EReal)
      = @HMul.hMul EReal EReal EReal instHMul (m ((c : Thread nD τ).loc main_arg6) (ix1 k)) Cert.Spec.scale :=
  (congrFun (W2_of_ne m ρ c main_v9 (by decide)) (ix2 0 k)).trans (V1_v9 m ρ c k)

/-- Region 0's first result, at its exit. -/
theorem V2_v10_0 (c : Dev nD) : V2 m ρ c main_v10_0 = (dat0 (V1 m ρ) c).arrAt 3 cfg0.N := W2_arr m ρ c 3

/-- Region 0's second result, at its exit. -/
theorem V2_v10_1 (c : Dev nD) : V2 m ρ c main_v10_1 = (dat0 (V1 m ρ) c).arrAt 4 cfg0.N := W2_arr m ρ c 4

/-- Region 1 only reads region 0's first result. -/
theorem V3_v10_0 (c : Dev nD) : V3 m ρ c main_v10_0 = (dat0 (V1 m ρ) c).arrAt 3 cfg0.N :=
  (W3_arr m ρ c 0).trans (((dat1 (V2 m ρ) c).arrAt_in 0 rfl _).trans ((A_eq1 (V2 m ρ) c 0).trans (W2_arr m ρ c 3)))

/-- Region 1's result, at its exit. -/
theorem V3_v11 (c : Dev nD) : V3 m ρ c main_v11 = (dat1 (V2 m ρ) c).arrAt 4 cfg1.N := W3_arr m ρ c 4

/-- Wq narrowed, at region 2's entry: region 0 only reads it, region 1 does not touch it. -/
theorem V3_v0 (c : Dev nD) (i k : Fin 512) : V3 m ρ c main_v0 (ix2 i k) = m ((c : Thread nD τ).loc main_arg1) (ix2 i k) :=
  (congrFun ((W3_of_ne m ρ c main_v0 (by decide)).trans
    ((W2_arr m ρ c 1).trans (((dat0 (V1 m ρ) c).arrAt_in 1 rfl _).trans (A_eq0 (V1 m ρ) c 1)))) (ix2 i k)).trans (V1_v0 m ρ c i k)

/-- Wv narrowed, at region 2's entry. -/
theorem V3_v2 (c : Dev nD) (i k : Fin 512) : V3 m ρ c main_v2 (ix2 i k) = m ((c : Thread nD τ).loc main_arg3) (ix2 i k) :=
  (congrFun ((W3_of_ne m ρ c main_v2 (by decide)).trans (W2_of_ne m ρ c main_v2 (by decide))) (ix2 i k)).trans (V1_v2 m ρ c i k)

/-- Wr narrowed, at region 2's entry. -/
theorem V3_v3 (c : Dev nD) (i k : Fin 512) : V3 m ρ c main_v3 (ix2 i k) = m ((c : Thread nD τ).loc main_arg4) (ix2 i k) :=
  (congrFun ((W3_of_ne m ρ c main_v3 (by decide)).trans (W2_of_ne m ρ c main_v3 (by decide))) (ix2 i k)).trans (V1_v3 m ρ c i k)

/-- Region 2's result, at its exit. -/
theorem W4_v12 (c : Dev nD) : W4 m ρ c (Proc.devRef .tc main_v12) = (dat2 (V3 m ρ) c).arrAt 5 cfg2.N := W4_arr m ρ c 5

end Cert.KernelIdeal.Walk

end
-- ==== Proof.KValue.lean ====
import proofs.«174871_j73358041415925_2_alg».proof.Proof.Region0
import proofs.«174871_j73358041415925_2_alg».proof.Proof.Region1
import proofs.«174871_j73358041415925_2_alg».proof.Proof.Region2
import proofs.«174871_j73358041415925_2_alg».proof.Proof.Walk
import Idealize.ShloMosaic.Lib.ValueIdx

set_option maxRecDepth 16384

noncomputable section

open Idealize.ShloMosaic Idealize.ShloMosaic.TcCoe Idealize.SL.Sem
open scoped BigOperators

/-
  The three stages joined. Stage 1 finds x, the query weights and the scaled α as launched (the narrowing of the weights to
  bf16 and the reshape of the scaled vector are the identity on values), so it leaves x and the specification's pooled query;
  stage 2 finds those, the key weights and the scaled β, so it leaves the specification's pooled key; stage 3 finds x, the
  pooled key and the three remaining weight arrays, so the result array ends as the specification's output.
-/
namespace Cert.KernelIdeal.KValue
open Cert.KernelIdeal Cert.KernelIdeal.Gen Idealize.ShloMosaic.ValueIdx

variable (m : (ℓ : Loc nD τ sig) → Buf (Elt Ideal) ℓ) (ρ : Dev nD → PrngReg)

/-- The argument arrays as plain functions of their coordinates. -/
abbrev aX (c : Dev nD) : Fin 32 → Fin 4096 → Fin 512 → EReal := fun b n k => m ((c : Thread nD τ).loc main_arg0) (ix3 b n k)
abbrev aW1 (c : Dev nD) : Fin 512 → Fin 512 → EReal := fun a k => m ((c : Thread nD τ).loc main_arg1) (ix2 a k)
abbrev aW2 (c : Dev nD) : Fin 512 → Fin 512 → EReal := fun a k => m ((c : Thread nD τ).loc main_arg2) (ix2 a k)
abbrev aW3 (c : Dev nD) : Fin 512 → Fin 512 → EReal := fun a k => m ((c : Thread nD τ).loc main_arg3) (ix2 a k)
abbrev aW4 (c : Dev nD) : Fin 512 → Fin 512 → EReal := fun a k => m ((c : Thread nD τ).loc main_arg4) (ix2 a k)
abbrev aα (c : Dev nD) : Fin 512 → EReal := fun k => m ((c : Thread nD τ).loc main_arg5) (ix1 k)
abbrev aβ (c : Dev nD) : Fin 512 → EReal := fun k => m ((c : Thread nD τ).loc main_arg6) (ix1 k)

/-- Stage 1's second output is the specification's pooled query. -/
theorem gq_apply (c : Dev nD) (b : Fin 32) (d : Fin 512) :
    (dat0 (V1 m ρ) c).arrAt 4 cfg0.N (ix3 b 0 d) = Cert.Spec.gq (aX m c) (aW1 m c) (aα m c) b d := by
  rw [R0.final4 (V1 m ρ) c]
  unfold R0.GQ
  rw [Cert.Spec.gq_eq_pool]
  simp only [Walk.V1_arg0 m ρ c, Walk.V1_v0 m ρ c, Walk.V1_v6 m ρ c]
  rfl

/-- Stage 2's output is the specification's pooled key. -/
theorem gk_apply (c : Dev nD) (b : Fin 32) (d : Fin 512) :
    (dat1 (V2 m ρ) c).arrAt 4 cfg1.N (ix3 b 0 d) = Cert.Spec.gk (aX m c) (aW1 m c) (aW2 m c) (aα m c) (aβ m c) b d := by
  rw [R1.final4 (V2 m ρ) c]
  unfold R1.GK R1.gkOf
  rw [Cert.Spec.gk_eq_pool, Walk.V2_v10_0 m ρ c, Walk.V2_v10_1 m ρ c, R0.final3 (V1 m ρ) c]
  unfold R0.XB
  simp only [gq_apply m ρ c, Walk.V1_arg0 m ρ c, Walk.V2_v1 m ρ c, Walk.V2_v9 m ρ c]
  rfl

/-- Stage 3's output, the program's result, is the specification's output. -/
theorem result_apply (c : Dev nD) (b : Fin 32) (n : Fin 4096) (e : Fin 512) :
    W4 m ρ c (Proc.devRef .tc main_v12) (ix3 b n e)
      = Cert.Spec.out (aX m c) (aW1 m c) (aW2 m c) (aW3 m c) (aW4 m c) (aα m c) (aβ m c) b n e := by
  rw [Walk.W4_v12 m ρ c, R2.final5 (V3 m ρ) c]
  unfold R2.OUT R2.outOf
  rw [Walk.V3_v10_0 m ρ c, Walk.V3_v11 m ρ c, R0.final3 (V1 m ρ) c]
  unfold R0.XB
  simp only [gk_apply m ρ c, Walk.V1_arg0 m ρ c, Walk.V3_v0 m ρ c, Walk.V3_v2 m ρ c, Walk.V3_v3 m ρ c]
  rfl

/-- The result array as one function of the argument arrays. -/
theorem result_eq (c : Dev nD) :
    W4 m ρ c (Proc.devRef .tc main_v12)
      = fun i => Cert.Spec.out (aX m c) (aW1 m c) (aW2 m c) (aW3 m c) (aW4 m c) (aα m c) (aβ m c) (i 0) (i 1) (i 2) := by
  funext i
  obtain ⟨b, n, e, rfl⟩ : ∃ (b : Fin 32) (n : Fin 4096) (e : Fin 512), i = ix3 b n e := ⟨i 0, i 1, i 2, eq_ix3 i⟩
  exact result_apply m ρ c b n e

end Cert.KernelIdeal.KValue
end
-- ==== Proof.RefValue.lean ====
/-
  The reference program, read one operation at a time, computes the specification: three row-times-matrix products,
  two softmax-weighted sums over the 4096 rows, one more product and a sum. The only algebra on the way is
  (q · α) · c = q · (α · c), 0 + s = s and max(−∞, m) = m.
-/
import proofs.«174871_j73358041415925_2_alg».proof.Proof.Spec
import proofs.«174871_j73358041415925_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.RefValue

open Idealize.ShloMosaic Idealize.ShloMosaic.ValueIdx Cert.ReferenceIdeal Cert.ReferenceIdeal.Read

variable (x0 : S32x4096x512.Idx → EReal) (x1 x2 x3 x4 : S512x512.Idx → EReal) (x5 x6 : S512.Idx → EReal)

/-- −∞ as a 32-bit word. -/
theorem ofBits_neg_inf : Ideal.ofBits .f32 0xFF800000#32 = (⊥ : EReal) := by simp [Ideal.ofBits, Ideal.ieee]

/-- The first product: q[b,n,·] = x[b,n,·] · Wq. -/
theorem v0_apply (b : Fin 32) (n : Fin 4096) (d : Fin 512) :
    val_main_v0 (F := Ideal) x0 x1 (ix3 b n d)
      = Cert.Spec.mm (fun k => x0 (ix3 b n k)) (fun a c => x1 (ix2 a c)) d := by
  rw [val_main_v0_apply]
  unfold Cert.Spec.mm
  refine Finset.sum_congr rfl fun k _ => congrArg₂ (· * ·) (congrArg x0 (funext fun a => ?_)) (congrArg x1 (funext fun a => ?_))
  · match a with
    | ⟨0, _⟩ => rfl
    | ⟨1, _⟩ => rfl
    | ⟨2, _⟩ => rfl
  · match a with
    | ⟨0, _⟩ => rfl
    | ⟨1, _⟩ => rfl

/-- The second product: x[b,n,·] · Wk. -/
theorem v1_apply (b : Fin 32) (n : Fin 4096) (d : Fin 512) :
    val_main_v1 (F := Ideal) x0 x2 (ix3 b n d)
      = Cert.Spec.mm (fun k => x0 (ix3 b n k)) (fun a c => x2 (ix2 a c)) d := by
  rw [val_main_v1_apply]
  unfold Cert.Spec.mm
  refine Finset.sum_congr rfl fun k _ => congrArg₂ (· * ·) (congrArg x0 (funext fun a => ?_)) (congrArg x2 (funext fun a => ?_))
  · match a with
    | ⟨0, _⟩ => rfl
    | ⟨1, _⟩ => rfl
    | ⟨2, _⟩ => rfl
  · match a with
    | ⟨0, _⟩ => rfl
    | ⟨1, _⟩ => rfl

/-- The third product: x[b,n,·] · Wv. -/
theorem v2_apply (b : Fin 32) (n : Fin 4096) (d : Fin 512) :
    val_main_v2 (F := Ideal) x0 x3 (ix3 b n d)
      = Cert.Spec.mm (fun k => x0 (ix3 b n k)) (fun a c => x3 (ix2 a c)) d := by
  rw [val_main_v2_apply]
  unfold Cert.Spec.mm
  refine Finset.sum_congr rfl fun k _ => congrArg₂ (· * ·) (congrArg x0 (funext fun a => ?_)) (congrArg x3 (funext fun a => ?_))
  · match a with
    | ⟨0, _⟩ => rfl
    | ⟨1, _⟩ => rfl
    | ⟨2, _⟩ => rfl
  · match a with
    | ⟨0, _⟩ => rfl
    | ⟨1, _⟩ => rfl

/-- α broadcast over the rows. -/
theorem v4_apply (b : Fin 32) (n : Fin 4096) (d : Fin 512) :
    val_main_v4 (F := Ideal) x5 (ix3 b n d) = x5 (ix1 d) := by
  rw [val_main_v4_apply, val_main_v3_apply]
  refine congrArg x5 (funext fun a => ?_)
  match a with
  | ⟨0, _⟩ => rfl

/-- The scale word broadcast. -/
theorem v6_apply (i : S32x4096x512.Idx) : val_main_v6 (F := Ideal) i = Cert.Spec.scale := by
  rw [val_main_v6_apply, val_main_cst_apply]
  rfl

/-- The first scores: (q · α) · c = q · (α · c). -/
theorem v7_apply (b : Fin 32) (n : Fin 4096) (d : Fin 512) :
    val_main_v7 (F := Ideal) x0 x1 x5 (ix3 b n d)
      = Cert.Spec.mm (fun k => x0 (ix3 b n k)) (fun a c => x1 (ix2 a c)) d * (x5 (ix1 d) * Cert.Spec.scale) := by
  rw [val_main_v7_apply, val_main_v5_apply]
  simp only [Ideal.mulf_def]
  rw [v0_apply, v4_apply, v6_apply, mul_assoc]

/-- The row maximum of the first scores, from −∞. -/
theorem v10_apply (b : Fin 32) (n : Fin 4096) :
    val_main_v10 (F := Ideal) x0 x1 x5 (ix2 b n)
      = Cert.Spec.rowMax (fun k => val_main_v7 (F := Ideal) x0 x1 x5 (ix3 b n k)) := by
  rw [val_main_v10_apply, val_main_v9_apply, val_main_cst_1_apply]
  unfold val_main_v8
  rw [Host.reduce_eq_fold_single (FloatOps.maximumf (F := Ideal) (φ := .f32)) _ _ Gen.reducesTo_S32x4096x512_S32x4096_d2 (by decide) Gen.h_S_ (ix2 b n)]
  rw [val_main_cst_0_apply]
  simp only [Ideal.ofBits_def, ofBits_neg_inf]
  refine Eq.trans (max_eq_right bot_le) ?_
  unfold Cert.Spec.rowMax
  refine Finset.fold_congr fun k _ => congrArg (val_main_v7 (F := Ideal) x0 x1 x5) (funext fun a => Fin.ext ?_)
  match a with
  | ⟨0, _⟩ => rfl
  | ⟨1, _⟩ => rfl
  | ⟨2, _⟩ => rfl

/-- The unnormalised weights of the first softmax. -/
theorem v14_apply (b : Fin 32) (n : Fin 4096) (d : Fin 512) :
    val_main_v14 (F := Ideal) x0 x1 x5 (ix3 b n d)
      = Cert.Spec.rowExp (fun k => val_main_v7 (F := Ideal) x0 x1 x5 (ix3 b n k)) d := by
  rw [val_main_v14_apply, val_main_v13_apply, val_main_v12_apply, val_main_v11_apply]
  simp only [Ideal.hostUnary_exp_def, Ideal.subf_def]
  unfold Cert.Spec.rowExp
  rw [← v10_apply x0 x1 x5 b n]
  refine congrArg (fun t => Ideal.exp (val_main_v7 (F := Ideal) x0 x1 x5 (ix3 b n d) - val_main_v10 (F := Ideal) x0 x1 x5 t)) (funext fun a => ?_)
  match a with
  | ⟨0, _⟩ => rfl
  | ⟨1, _⟩ => rfl

/-- The denominator of the first softmax. -/
theorem v15_apply (b : Fin 32) (n : Fin 4096) :
    val_main_v15 (F := Ideal) x0 x1 x5 (ix2 b n)
      = ∑ k : Fin 512, Cert.Spec.rowExp (fun k => val_main_v7 (F := Ideal) x0 x1 x5 (ix3 b n k)) k := by
  rw [val_main_v15_apply, val_main_cst_2_apply]
  simp only [Ideal.ofBits_def, Ideal.ofBits_zero_f32, zero_add]
  refine Finset.sum_congr rfl fun k _ => ?_
  refine Eq.trans (congrArg (val_main_v14 (F := Ideal) x0 x1 x5) (funext fun a => ?_)) (v14_apply x0 x1 x5 b n k)
  match a with
  | ⟨0, _⟩ => rfl
  | ⟨1, _⟩ => rfl
  | ⟨2, _⟩ => rfl

/-- The first softmax. -/
theorem v18_apply (b : Fin 32) (n : Fin 4096) (d : Fin 512) :
    val_main_v18 (F := Ideal) x0 x1 x5 (ix3 b n d)
      = Cert.Spec.soft (fun k => val_main_v7 (F := Ideal) x0 x1 x5 (ix3 b n k)) d := by
  rw [val_main_v18_apply, val_main_v17_apply, val_main_v16_apply]
  simp only [Ideal.hostDivf_def]
  unfold Cert.Spec.soft
  rw [v14_apply]
  refine congrArg (Ideal.div _) ?_
  refine Eq.trans (congrArg (val_main_v15 (F := Ideal) x0 x1 x5) (funext fun a => ?_)) (v15_apply x0 x1 x5 b n)
  match a with
  | ⟨0, _⟩ => rfl
  | ⟨1, _⟩ => rfl

/-- One row's contribution to the pooled query. -/
theorem v19_apply (b : Fin 32) (n : Fin 4096) (d : Fin 512) :
    val_main_v19 (F := Ideal) x0 x1 x5 (ix3 b n d)
      = Cert.Spec.term (Cert.Spec.mm (fun k => x0 (ix3 b n k)) (fun a c => x1 (ix2 a c)))
          (fun k => x5 (ix1 k) * Cert.Spec.scale) d := by
  rw [val_main_v19_apply]
  simp only [Ideal.mulf_def]
  rw [v0_apply, v18_apply]
  unfold Cert.Spec.term
  exact congrArg (_ * ·) (congrArg (fun s => Cert.Spec.soft s d) (funext fun k => v7_apply x0 x1 x5 b n k))

/-- The pooled query: 0 + the sum over the 4096 rows. -/
theorem v20_apply (b : Fin 32) (d : Fin 512) :
    val_main_v20 (F := Ideal) x0 x1 x5 (ix2 b d)
      = Cert.Spec.gq (fun b n k => x0 (ix3 b n k)) (fun a c => x1 (ix2 a c)) (fun k => x5 (ix1 k)) b d := by
  rw [val_main_v20_apply, val_main_cst_3_apply]
  simp only [Ideal.ofBits_def, Ideal.ofBits_zero_f32, zero_add]
  unfold Cert.Spec.gq
  refine Finset.sum_congr rfl fun n _ => ?_
  refine Eq.trans (congrArg (val_main_v19 (F := Ideal) x0 x1 x5) (funext fun a => ?_)) (v19_apply x0 x1 x5 b n d)
  match a with
  | ⟨0, _⟩ => rfl
  | ⟨1, _⟩ => rfl
  | ⟨2, _⟩ => rfl

/-- The pooled query broadcast over the rows. -/
theorem v22_apply (b : Fin 32) (n : Fin 4096) (d : Fin 512) :
    val_main_v22 (F := Ideal) x0 x1 x5 (ix3 b n d) = val_main_v20 (F := Ideal) x0 x1 x5 (ix2 b d) := by
  rw [val_main_v22_apply, val_main_v21_apply]
  refine congrArg (val_main_v20 (F := Ideal) x0 x1 x5) (funext fun a => ?_)
  match a with
  | ⟨0, _⟩ => rfl
  | ⟨1, _⟩ => rfl

/-- p[b,n,d] = gq[b,d] · (x[b,n,·] · Wk)[d]. -/
theorem v23_apply (b : Fin 32) (n : Fin 4096) (d : Fin 512) :
    val_main_v23 (F := Ideal) x0 x1 x2 x5 (ix3 b n d)
      = Cert.Spec.gq (fun b n k => x0 (ix3 b n k)) (fun a c => x1 (ix2 a c)) (fun k => x5 (ix1 k)) b d
          * Cert.Spec.mm (fun k => x0 (ix3 b n k)) (fun a c => x2 (ix2 a c)) d := by
  rw [val_main_v23_apply]
  simp only [Ideal.mulf_def]
  rw [v22_apply, v20_apply, v1_apply]

/-- β broadcast over the rows. -/
theorem v25_apply (b : Fin 32) (n : Fin 4096) (d : Fin 512) :
    val_main_v25 (F := Ideal) x6 (ix3 b n d) = x6 (ix1 d) := by
  rw [val_main_v25_apply, val_main_v24_apply]
  refine congrArg x6 (funext fun a => ?_)
  match a with
  | ⟨0, _⟩ => rfl

/-- The scale word broadcast, second use. -/
theorem v27_apply (i : S32x4096x512.Idx) : val_main_v27 (F := Ideal) i = Cert.Spec.scale := by
  rw [val_main_v27_apply, val_main_cst_4_apply]
  rfl

/-- The second scores: (p · β) · c = p · (β · c). -/
theorem v28_apply (b : Fin 32) (n : Fin 4096) (d : Fin 512) :
    val_main_v28 (F := Ideal) x0 x1 x2 x5 x6 (ix3 b n d)
      = (Cert.Spec.gq (fun b n k => x0 (ix3 b n k)) (fun a c => x1 (ix2 a c)) (fun k => x5 (ix1 k)) b d
          * Cert.Spec.mm (fun k => x0 (ix3 b n k)) (fun a c => x2 (ix2 a c)) d) * (x6 (ix1 d) * Cert.Spec.scale) := by
  rw [val_main_v28_apply, val_main_v26_apply]
  simp only [Ideal.mulf_def]
  rw [v23_apply, v25_apply, v27_apply, mul_assoc]

/-- The row maximum of the second scores, from −∞. -/
theorem v31_apply (b : Fin 32) (n : Fin 4096) :
    val_main_v31 (F := Ideal) x0 x1 x2 x5 x6 (ix2 b n)
      = Cert.Spec.rowMax (fun k => val_main_v28 (F := Ideal) x0 x1 x2 x5 x6 (ix3 b n k)) := by
  rw [val_main_v31_apply, val_main_v30_apply, val_main_cst_6_apply]
  unfold val_main_v29
  rw [Host.reduce_eq_fold_single (FloatOps.maximumf (F := Ideal) (φ := .f32)) _ _ Gen.reducesTo_S32x4096x512_S32x4096_d2 (by decide) Gen.h_S_ (ix2 b n)]
  rw [val_main_cst_5_apply]
  simp only [Ideal.ofBits_def, ofBits_neg_inf]
  refine Eq.trans (max_eq_right bot_le) ?_
  unfold Cert.Spec.rowMax
  refine Finset.fold_congr fun k _ => congrArg (val_main_v28 (F := Ideal) x0 x1 x2 x5 x6) (funext fun a => Fin.ext ?_)
  match a with
  | ⟨0, _⟩ => rfl
  | ⟨1, _⟩ => rfl
  | ⟨2, _⟩ => rfl

/-- The unnormalised weights of the second softmax. -/
theorem v35_apply (b : Fin 32) (n : Fin 4096) (d : Fin 512) :
    val_main_v35 (F := Ideal) x0 x1 x2 x5 x6 (ix3 b n d)
      = Cert.Spec.rowExp (fun k => val_main_v28 (F := Ideal) x0 x1 x2 x5 x6 (ix3 b n k)) d := by
  rw [val_main_v35_apply, val_main_v34_apply, val_main_v33_apply, val_main_v32_apply]
  simp only [Ideal.hostUnary_exp_def, Ideal.subf_def]
  unfold Cert.Spec.rowExp
  rw [← v31_apply x0 x1 x2 x5 x6 b n]
  refine congrArg (fun t => Ideal.exp (val_main_v28 (F := Ideal) x0 x1 x2 x5 x6 (ix3 b n d) - val_main_v31 (F := Ideal) x0 x1 x2 x5 x6 t)) (funext fun a => ?_)
  match a with
  | ⟨0, _⟩ => rfl
  | ⟨1, _⟩ => rfl

/-- The denominator of the second softmax. -/
theorem v36_apply (b : Fin 32) (n : Fin 4096) :
    val_main_v36 (F := Ideal) x0 x1 x2 x5 x6 (ix2 b n)
      = ∑ k : Fin 512, Cert.Spec.rowExp (fun k => val_main_v28 (F := Ideal) x0 x1 x2 x5 x6 (ix3 b n k)) k := by
  rw [val_main_v36_apply, val_main_cst_7_apply]
  simp only [Ideal.ofBits_def, Ideal.ofBits_zero_f32, zero_add]
  refine Finset.sum_congr rfl fun k _ => ?_
  refine Eq.trans (congrArg (val_main_v35 (F := Ideal) x0 x1 x2 x5 x6) (funext fun a => ?_)) (v35_apply x0 x1 x2 x5 x6 b n k)
  match a with
  | ⟨0, _⟩ => rfl
  | ⟨1, _⟩ => rfl
  | ⟨2, _⟩ => rfl

/-- The second softmax. -/
theorem v39_apply (b : Fin 32) (n : Fin 4096) (d : Fin 512) :
    val_main_v39 (F := Ideal) x0 x1 x2 x5 x6 (ix3 b n d)
      = Cert.Spec.soft (fun k => val_main_v28 (F := Ideal) x0 x1 x2 x5 x6 (ix3 b n k)) d := by
  rw [val_main_v39_apply, val_main_v38_apply, val_main_v37_apply]
  simp only [Ideal.hostDivf_def]
  unfold Cert.Spec.soft
  rw [v35_apply]
  refine congrArg (Ideal.div _) ?_
  refine Eq.trans (congrArg (val_main_v36 (F := Ideal) x0 x1 x2 x5 x6) (funext fun a => ?_)) (v36_apply x0 x1 x2 x5 x6 b n)
  match a with
  | ⟨0, _⟩ => rfl
  | ⟨1, _⟩ => rfl

/-- One row's contribution to the pooled key. -/
theorem v40_apply (b : Fin 32) (n : Fin 4096) (d : Fin 512) :
    val_main_v40 (F := Ideal) x0 x1 x2 x5 x6 (ix3 b n d)
      = Cert.Spec.term
          (fun k => Cert.Spec.gq (fun b n k => x0 (ix3 b n k)) (fun a c => x1 (ix2 a c)) (fun k => x5 (ix1 k)) b k
            * Cert.Spec.mm (fun k => x0 (ix3 b n k)) (fun a c => x2 (ix2 a c)) k)
          (fun k => x6 (ix1 k) * Cert.Spec.scale) d := by
  rw [val_main_v40_apply]
  simp only [Ideal.mulf_def]
  rw [v23_apply, v39_apply]
  unfold Cert.Spec.term
  exact congrArg (_ * ·) (congrArg (fun s => Cert.Spec.soft s d) (funext fun k => v28_apply x0 x1 x2 x5 x6 b n k))

/-- The pooled key: 0 + the sum over the 4096 rows. -/
theorem v41_apply (b : Fin 32) (d : Fin 512) :
    val_main_v41 (F := Ideal) x0 x1 x2 x5 x6 (ix2 b d)
      = Cert.Spec.gk (fun b n k => x0 (ix3 b n k)) (fun a c => x1 (ix2 a c)) (fun a c => x2 (ix2 a c))
          (fun k => x5 (ix1 k)) (fun k => x6 (ix1 k)) b d := by
  rw [val_main_v41_apply, val_main_cst_8_apply]
  simp only [Ideal.ofBits_def, Ideal.ofBits_zero_f32, zero_add]
  unfold Cert.Spec.gk
  refine Finset.sum_congr rfl fun n _ => ?_
  refine Eq.trans (congrArg (val_main_v40 (F := Ideal) x0 x1 x2 x5 x6) (funext fun a => ?_)) (v40_apply x0 x1 x2 x5 x6 b n d)
  match a with
  | ⟨0, _⟩ => rfl
  | ⟨1, _⟩ => rfl
  | ⟨2, _⟩ => rfl

/-- The pooled key broadcast over the rows. -/
theorem v43_apply (b : Fin 32) (n : Fin 4096) (d : Fin 512) :
    val_main_v43 (F := Ideal) x0 x1 x2 x5 x6 (ix3 b n d) = val_main_v41 (F := Ideal) x0 x1 x2 x5 x6 (ix2 b d) := by
  rw [val_main_v43_apply, val_main_v42_apply]
  refine congrArg (val_main_v41 (F := Ideal) x0 x1 x2 x5 x6) (funext fun a => ?_)
  match a with
  | ⟨0, _⟩ => rfl
  | ⟨1, _⟩ => rfl

/-- gk[b,d] · (x[b,n,·] · Wv)[d]. -/
theorem v44_apply (b : Fin 32) (n : Fin 4096) (d : Fin 512) :
    val_main_v44 (F := Ideal) x0 x1 x2 x3 x5 x6 (ix3 b n d)
      = Cert.Spec.gk (fun b n k => x0 (ix3 b n k)) (fun a c => x1 (ix2 a c)) (fun a c => x2 (ix2 a c))
          (fun k => x5 (ix1 k)) (fun k => x6 (ix1 k)) b d
          * Cert.Spec.mm (fun k => x0 (ix3 b n k)) (fun a c => x3 (ix2 a c)) d := by
  rw [val_main_v44_apply]
  simp only [Ideal.mulf_def]
  rw [v43_apply, v41_apply, v2_apply]

/-- The last product. -/
theorem v45_apply (b : Fin 32) (n : Fin 4096) (e : Fin 512) :
    val_main_v45 (F := Ideal) x0 x1 x2 x3 x4 x5 x6 (ix3 b n e)
      = Cert.Spec.mm
          (fun d => Cert.Spec.gk (fun b n k => x0 (ix3 b n k)) (fun a c => x1 (ix2 a c)) (fun a c => x2 (ix2 a c))
              (fun k => x5 (ix1 k)) (fun k => x6 (ix1 k)) b d
            * Cert.Spec.mm (fun k => x0 (ix3 b n k)) (fun a c => x3 (ix2 a c)) d)
          (fun a c => x4 (ix2 a c)) e := by
  rw [val_main_v45_apply]
  unfold Cert.Spec.mm
  refine Finset.sum_congr rfl fun k _ => congrArg₂ (· * ·) ?_ (congrArg x4 (funext fun a => ?_))
  · refine Eq.trans (congrArg (val_main_v44 (F := Ideal) x0 x1 x2 x3 x5 x6) (funext fun a => ?_)) (v44_apply x0 x1 x2 x3 x5 x6 b n k)
    match a with
    | ⟨0, _⟩ => rfl
    | ⟨1, _⟩ => rfl
    | ⟨2, _⟩ => rfl
  · match a with
    | ⟨0, _⟩ => rfl
    | ⟨1, _⟩ => rfl

/-- The reference's result at (b, n, e). -/
theorem v46_apply (b : Fin 32) (n : Fin 4096) (e : Fin 512) :
    val_main_v46 (F := Ideal) x0 x1 x2 x3 x4 x5 x6 (ix3 b n e)
      = Cert.Spec.out (fun b n k => x0 (ix3 b n k)) (fun a c => x1 (ix2 a c)) (fun a c => x2 (ix2 a c))
          (fun a c => x3 (ix2 a c)) (fun a c => x4 (ix2 a c)) (fun k => x5 (ix1 k)) (fun k => x6 (ix1 k)) b n e := by
  rw [val_main_v46_apply]
  simp only [Ideal.addf_def]
  rw [v45_apply, v0_apply]
  rfl

/-- The reference's composed term is the specification, index by index. -/
theorem ref_eq (x0 : S32x4096x512.Idx → EReal) (x1 x2 x3 x4 : S512x512.Idx → EReal) (x5 x6 : S512.Idx → EReal) :
    val_main_v46 (F := Ideal) x0 x1 x2 x3 x4 x5 x6
      = fun i => Cert.Spec.out (fun b n k => x0 (ix3 b n k)) (fun a b => x1 (ix2 a b)) (fun a b => x2 (ix2 a b))
          (fun a b => x3 (ix2 a b)) (fun a b => x4 (ix2 a b)) (fun k => x5 (ix1 k)) (fun k => x6 (ix1 k)) (i 0) (i 1) (i 2) := by
  funext i
  obtain ⟨b, n, e, rfl⟩ : ∃ (b : Fin 32) (n : Fin 4096) (e : Fin 512), i = ix3 b n e := ⟨i 0, i 1, i 2, eq_ix3 i⟩
  exact v46_apply x0 x1 x2 x3 x4 x5 x6 b n e

end Cert.RefValue

end
-- ==== Proof.lean ====
/-
  The kernel — an additive ("Fastformer") attention in three pallas_calls — against its jnp reference, over the extended reals.

  Both compute, for x[b,n,·] (32 × 4096 rows of length 512), weight matrices Wq, Wk, Wv, Wr and vectors α, β, with c the common
  scale word:  q = x·Wq;  gq[b,·] = Σ_n q[b,n,·] ∘ softmax(q[b,n,·] ∘ α c);  p[b,n,·] = gq[b,·] ∘ (x[b,n,·]·Wk);
  gk[b,·] = Σ_n p[b,n,·] ∘ softmax(p[b,n,·] ∘ β c);  out[b,n,·] = (gk[b,·] ∘ (x[b,n,·]·Wv))·Wr + q[b,n,·]   (Proof/Spec.lean).
  The kernel narrows x and the weights to bf16 (the identity on extended reals), multiplies α and β by c beforehand
  ((q·α)·c = q·(α·c), associativity of the product), takes each softmax row by row exactly as the reference does, and sums
  the 4096 rows of a batch in two halves of 2048 into an accumulator that starts at zero (a sum of extended reals does not
  depend on its grouping). No law used needs the inputs to be finite, so the precondition is never opened.

  The pieces: the reference's composed term is the specification (Proof/RefValue.lean, over the generated read-at-an-index
  lemmas); each kernel body's arithmetic at an index (Proof/Payload.lean); what the bodies' stores leave (Proof/Pieces.lean);
  each stage's output arrays as functions of the arrays it found (Proof/Region0.lean, Region1.lean, Region2.lean); the
  arrays each stage finds, walked back to the launch memory (Proof/Walk.lean); the three joined (Proof/KValue.lean); the
  kernel's run with its result named (Proof/KRun.lean). The idealization rewrote nothing, so `preserves` is trivial.
-/
import proofs.«174871_j73358041415925_2_alg».proof.Defs
import proofs.«174871_j73358041415925_2_alg».proof.Proof.Gen.Kernel
import proofs.«174871_j73358041415925_2_alg».proof.Proof.Gen.Kernel.Skeleton
import proofs.«174871_j73358041415925_2_alg».proof.Proof.Gen.Kernel.Launch
import proofs.«174871_j73358041415925_2_alg».proof.Proof.Gen.Kernel.Points
import proofs.«174871_j73358041415925_2_alg».proof.Proof.Gen.Kernel.Frame
import proofs.«174871_j73358041415925_2_alg».proof.Proof.Gen.KernelIdeal
import proofs.«174871_j73358041415925_2_alg».proof.Proof.Gen.KernelIdeal.Skeleton
import proofs.«174871_j73358041415925_2_alg».proof.Proof.Gen.KernelIdeal.Launch
import proofs.«174871_j73358041415925_2_alg».proof.Proof.Gen.KernelIdeal.Points
import proofs.«174871_j73358041415925_2_alg».proof.Proof.Gen.KernelIdeal.Frame
import proofs.«174871_j73358041415925_2_alg».proof.Proof.Gen.ReferenceIdeal
import proofs.«174871_j73358041415925_2_alg».proof.Proof.Gen.Pre_finite_inputs
import proofs.«174871_j73358041415925_2_alg».proof.Proof.Gen.ReferenceIdeal.Run
import proofs.«174871_j73358041415925_2_alg».proof.Proof.Gen.ReferenceIdeal.Read
import proofs.«174871_j73358041415925_2_alg».proof.Proof.KRun
import proofs.«174871_j73358041415925_2_alg».proof.Proof.KValue
import proofs.«174871_j73358041415925_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel's result array and the reference's end at one function of arguments that agree:
    the specification's output. -/
theorem algebraic : Cert.algebraic_KernelIdeal_ReferenceIdeal := by
  intro m ρ m' ρ' _ hagree
  refine ⟨fun c => Cert.KernelIdeal.Gen.W4 m ρ c (Proc.devRef .tc Cert.KernelIdeal.main_v12), Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.RefValue.ref_eq, (hagree c).1, (hagree c).2.1, (hagree c).2.2.1,
    (hagree c).2.2.2.1, (hagree c).2.2.2.2.1, (hagree c).2.2.2.2.2.1, (hagree c).2.2.2.2.2.2]
  exact (Cert.KernelIdeal.KValue.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
